-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x3072 : Shape := ⟨2, ![1024, 3072]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S2x2048x1024 .f32) (main_arg1 : FVec F S1024x3072 .f32) (main_arg2 : FVec F S1024x1024 .f32) (main_arg3 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x3072 .f32 := Host.absf main_arg1
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S2x2048x1024 : Shape := ⟨3, ![2, 2048, 1024]⟩
abbrev S1024x3072 : Shape := ⟨2, ![1024, 3072]⟩
abbrev S1024x1024 : Shape := ⟨2, ![1024, 1024]⟩
abbrev S1024 : Shape := ⟨1, ![1024]⟩
abbrev S2x16x2048x64 : Shape := ⟨4, ![2, 16, 2048, 64]⟩
abbrev S1x512x1024 : Shape := ⟨3, ![1, 512, 1024]⟩
abbrev S1x16x512x64 : Shape := ⟨4, ![1, 16, 512, 64]⟩
abbrev S512x1024 : Shape := ⟨2, ![512, 1024]⟩
abbrev S512x3072 : Shape := ⟨2, ![512, 3072]⟩
abbrev S512x3x16x64 : Shape := ⟨4, ![512, 3, 16, 64]⟩
abbrev S512x1x16x64 : Shape := ⟨4, ![512, 1, 16, 64]⟩
abbrev S512x16x64 : Shape := ⟨3, ![512, 16, 64]⟩
abbrev S16x512x64 : Shape := ⟨3, ![16, 512, 64]⟩
abbrev S1x1x1024x64 : Shape := ⟨4, ![1, 1, 1024, 64]⟩
abbrev S1x1x2048x64 : Shape := ⟨4, ![1, 1, 2048, 64]⟩
abbrev S1024x64 : Shape := ⟨2, ![1024, 64]⟩
abbrev S2048x64 : Shape := ⟨2, ![2048, 64]⟩
abbrev S1024x2048 : Shape := ⟨2, ![1024, 2048]⟩
abbrev S1024x1 : Shape := ⟨2, ![1024, 1]⟩
abbrev S1x1024 : Shape := ⟨2, ![1, 1024]⟩
abbrev S1x16x1024x64 : Shape := ⟨4, ![1, 16, 1024, 64]⟩
abbrev S1x1024x1024 : Shape := ⟨3, ![1, 1024, 1024]⟩
abbrev S16x1024x64 : Shape := ⟨3, ![16, 1024, 64]⟩
abbrev S1x1024x64 : Shape := ⟨3, ![1, 1024, 64]⟩
abbrev S64x1024 : Shape := ⟨2, ![64, 1024]⟩

abbrev nBuf : Space → Nat
  | .hbm => 12
  | .vmem => 23
  | .smem => 0
  | _ => 0

abbrev bufTy : (tb : Table) → Fin (tcTables nBuf tb) → BufTy
  | .hbm, ⟨0, _⟩ => ⟨S2x2048x1024, .f32⟩
  | .hbm, ⟨1, _⟩ => ⟨S1024x3072, .f32⟩
  | .hbm, ⟨2, _⟩ => ⟨S1024x1024, .f32⟩
  | .hbm, ⟨3, _⟩ => ⟨S1024, .f32⟩
  | .hbm, ⟨4, _⟩ => ⟨S1024x3072, .bf16⟩
  | .hbm, ⟨5, _⟩ => ⟨S1024x1024, .bf16⟩
  | .hbm, ⟨6, _⟩ => ⟨S2x16x2048x64, .bf16⟩
  | .hbm, ⟨7, _⟩ => ⟨S2x16x2048x64, .bf16⟩
  | .hbm, ⟨8, _⟩ => ⟨S2x16x2048x64, .bf16⟩
  | .hbm, ⟨9, _⟩ => ⟨S2x16x2048x64, .bf16⟩
  | .hbm, ⟨10, _⟩ => ⟨S1x1024, .f32⟩
  | .hbm, ⟨11, _⟩ => ⟨S2x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x3072, .bf16⟩
  | .local _ .vmem, ⟨3, _⟩ => ⟨S1x16x512x64, .bf16⟩
  | .local _ .vmem, ⟨4, _⟩ => ⟨S1x16x512x64, .bf16⟩
  | .local _ .vmem, ⟨5, _⟩ => ⟨S1x16x512x64, .bf16⟩
  | .local _ .vmem, ⟨6, _⟩ => ⟨S1x16x512x64, .bf16⟩
  | .local _ .vmem, ⟨7, _⟩ => ⟨S1x16x512x64, .bf16⟩
  | .local _ .vmem, ⟨8, _⟩ => ⟨S1x16x512x64, .bf16⟩
  | .local _ .vmem, ⟨9, _⟩ => ⟨S1x1x1024x64, .bf16⟩
  | .local _ .vmem, ⟨10, _⟩ => ⟨S1x1x1024x64, .bf16⟩
  | .local _ .vmem, ⟨11, _⟩ => ⟨S1x1x2048x64, .bf16⟩
  | .local _ .vmem, ⟨12, _⟩ => ⟨S1x1x2048x64, .bf16⟩
  | .local _ .vmem, ⟨13, _⟩ => ⟨S1x1x2048x64, .bf16⟩
  | .local _ .vmem, ⟨14, _⟩ => ⟨S1x1x2048x64, .bf16⟩
  | .local _ .vmem, ⟨15, _⟩ => ⟨S1x1x1024x64, .bf16⟩
  | .local _ .vmem, ⟨16, _⟩ => ⟨S1x1x1024x64, .bf16⟩
  | .local _ .vmem, ⟨17, _⟩ => ⟨S1x16x1024x64, .bf16⟩
  | .local _ .vmem, ⟨18, _⟩ => ⟨S1x16x1024x64, .bf16⟩
  | .local _ .vmem, ⟨19, _⟩ => ⟨S1024x1024, .bf16⟩
  | .local _ .vmem, ⟨20, _⟩ => ⟨S1x1024, .f32⟩
  | .local _ .vmem, ⟨21, _⟩ => ⟨S1x1024x1024, .f32⟩
  | .local _ .vmem, ⟨22, _⟩ => ⟨S1x1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem3_1 : DmaSem sig := 22

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x16x512x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![2, 16, 2], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage1_0 : Fin 2 → Memref sig .tc .vmem S1x1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x1x1024x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨2, ![2, 2], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x16x1024x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  shapeCasts_S512x3072_S512x3x16x64 : S512x3072.ShapeCasts S512x3x16x64
  slices_S512x3x16x64_o0_0_0_0_S512x1x16x64 : S512x3x16x64.Slices ![0, 0, 0, 0] S512x1x16x64
  shapeCasts_S512x1x16x64_S512x16x64 : S512x1x16x64.ShapeCasts S512x16x64
  slices_S512x3x16x64_o0_1_0_0_S512x1x16x64 : S512x3x16x64.Slices ![0, 1, 0, 0] S512x1x16x64
  slices_S512x3x16x64_o0_2_0_0_S512x1x16x64 : S512x3x16x64.Slices ![0, 2, 0, 0] S512x1x16x64
  transposes_S512x16x64_p1_0_2_S16x512x64 : S512x16x64.Transposes [1, 0, 2] S16x512x64
  inb_S1x16x512x64_S1x16x512x64_0_0_0_0 : ∀ a, (![0, 0, 0, 0] : Fin 4 → Nat) a + S1x16x512x64.size a ≤ S1x16x512x64.size a
  h_S1x16x512x64 : 0 < S1x16x512x64.numel
  shapeCasts_S1x16x512x64_S16x512x64 : S1x16x512x64.ShapeCasts S16x512x64
  shapeCasts_S16x512x64_S1x16x512x64 : S16x512x64.ShapeCasts S1x16x512x64
  packedbf16_S1x16x512x64_S1x16x512x64_0_0_0_0 : (Rect.unit (s := S1x16x512x64) ![0, 0, 0, 0] S1x16x512x64.size inb_S1x16x512x64_S1x16x512x64_0_0_0_0).PackedRows (EltTy.packing .bf16)
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x64 : S1024x1.Broadcasts S1024x64
  shapeCasts_S1024x64_S1x1x1024x64 : S1024x64.ShapeCasts S1x1x1024x64
  packedbf16_S1x1x1024x64_S1x1x1024x64_0_0_0_0 : (Rect.unit (s := S1x1x1024x64) ![0, 0, 0, 0] S1x1x1024x64.size inb_S1x1x1024x64_S1x1x1024x64_0_0_0_0).PackedRows (EltTy.packing .bf16)
  shapeCasts_S1024_S1x1024 : S1024.ShapeCasts S1x1024
  inb_S1x16x1024x64_S1x16x1024x64_0_0_0_0 : ∀ a, (![0, 0, 0, 0] : Fin 4 → Nat) a + S1x16x1024x64.size a ≤ S1x16x1024x64.size a
  h_S1x16x1024x64 : 0 < S1x16x1024x64.numel
  shapeCasts_S1x16x1024x64_S16x1024x64 : S1x16x1024x64.ShapeCasts S16x1024x64
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S16x1024x64_o0_0_0_S1x1024x64 : S16x1024x64.Slices ![0, 0, 0] S1x1024x64
  shapeCasts_S1x1024x64_S1024x64 : S1x1024x64.ShapeCasts S1024x64
  slices_S1024x1024_o0_0_S64x1024 : S1024x1024.Slices ![0, 0] S64x1024
  slices_S16x1024x64_o1_0_0_S1x1024x64 : S16x1024x64.Slices ![1, 0, 0] S1x1024x64
  slices_S1024x1024_o64_0_S64x1024 : S1024x1024.Slices ![64, 0] S64x1024
  slices_S16x1024x64_o2_0_0_S1x1024x64 : S16x1024x64.Slices ![2, 0, 0] S1x1024x64
  slices_S1024x1024_o128_0_S64x1024 : S1024x1024.Slices ![128, 0] S64x1024
  slices_S16x1024x64_o3_0_0_S1x1024x64 : S16x1024x64.Slices ![3, 0, 0] S1x1024x64
  slices_S1024x1024_o192_0_S64x1024 : S1024x1024.Slices ![192, 0] S64x1024
  slices_S16x1024x64_o4_0_0_S1x1024x64 : S16x1024x64.Slices ![4, 0, 0] S1x1024x64
  slices_S1024x1024_o256_0_S64x1024 : S1024x1024.Slices ![256, 0] S64x1024
  slices_S16x1024x64_o5_0_0_S1x1024x64 : S16x1024x64.Slices ![5, 0, 0] S1x1024x64
  slices_S1024x1024_o320_0_S64x1024 : S1024x1024.Slices ![320, 0] S64x1024
  slices_S16x1024x64_o6_0_0_S1x1024x64 : S16x1024x64.Slices ![6, 0, 0] S1x1024x64
  slices_S1024x1024_o384_0_S64x1024 : S1024x1024.Slices ![384, 0] S64x1024
  slices_S16x1024x64_o7_0_0_S1x1024x64 : S16x1024x64.Slices ![7, 0, 0] S1x1024x64
  slices_S1024x1024_o448_0_S64x1024 : S1024x1024.Slices ![448, 0] S64x1024
  slices_S16x1024x64_o8_0_0_S1x1024x64 : S16x1024x64.Slices ![8, 0, 0] S1x1024x64
  slices_S1024x1024_o512_0_S64x1024 : S1024x1024.Slices ![512, 0] S64x1024
  slices_S16x1024x64_o9_0_0_S1x1024x64 : S16x1024x64.Slices ![9, 0, 0] S1x1024x64
  slices_S1024x1024_o576_0_S64x1024 : S1024x1024.Slices ![576, 0] S64x1024
  slices_S16x1024x64_o10_0_0_S1x1024x64 : S16x1024x64.Slices ![10, 0, 0] S1x1024x64
  slices_S1024x1024_o640_0_S64x1024 : S1024x1024.Slices ![640, 0] S64x1024
  slices_S16x1024x64_o11_0_0_S1x1024x64 : S16x1024x64.Slices ![11, 0, 0] S1x1024x64
  slices_S1024x1024_o704_0_S64x1024 : S1024x1024.Slices ![704, 0] S64x1024
  slices_S16x1024x64_o12_0_0_S1x1024x64 : S16x1024x64.Slices ![12, 0, 0] S1x1024x64
  slices_S1024x1024_o768_0_S64x1024 : S1024x1024.Slices ![768, 0] S64x1024
  slices_S16x1024x64_o13_0_0_S1x1024x64 : S16x1024x64.Slices ![13, 0, 0] S1x1024x64
  slices_S1024x1024_o832_0_S64x1024 : S1024x1024.Slices ![832, 0] S64x1024
  slices_S16x1024x64_o14_0_0_S1x1024x64 : S16x1024x64.Slices ![14, 0, 0] S1x1024x64
  slices_S1024x1024_o896_0_S64x1024 : S1024x1024.Slices ![896, 0] S64x1024
  slices_S16x1024x64_o15_0_0_S1x1024x64 : S16x1024x64.Slices ![15, 0, 0] S1x1024x64
  slices_S1024x1024_o960_0_S64x1024 : S1024x1024.Slices ![960, 0] S64x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S512x1024_S1024x3072_S512x3072_1_0_0_1_n_n_wf : DotDims.WF S512x1024 S1024x3072 S512x3072 [1] [0] [0] [1] [] []
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S2x2048x1024.size a
  hwx0_0 : ∀ i : grid0.Coords, EltTy.bits .f32 = 32 ∨ (Rect.block (s := S2x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x512x64.size a ≤ S2x16x2048x64.size a
  hwx0_2 : ∀ i : grid0.Coords, EltTy.bits .bf16 = 32 ∨ (Rect.block (s := S2x16x2048x64) S1x16x512x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x512x64.size a ≤ S2x16x2048x64.size a
  hwx0_3 : ∀ i : grid0.Coords, EltTy.bits .bf16 = 32 ∨ (Rect.block (s := S2x16x2048x64) S1x16x512x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x512x64.size a ≤ S2x16x2048x64.size a
  hwx0_4 : ∀ i : grid0.Coords, EltTy.bits .bf16 = 32 ∨ (Rect.block (s := S2x16x2048x64) S1x16x512x64.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x1024x64.size a ≤ S2x16x2048x64.size a
  hwx1_0 : ∀ i : grid1.Coords, EltTy.bits .bf16 = 32 ∨ (Rect.block (s := S2x16x2048x64) S1x1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x2048x64.size a ≤ S2x16x2048x64.size a
  hwx1_1 : ∀ i : grid1.Coords, EltTy.bits .bf16 = 32 ∨ (Rect.block (s := S2x16x2048x64) S1x1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2048x64.size a ≤ S2x16x2048x64.size a
  hwx1_2 : ∀ i : grid1.Coords, EltTy.bits .bf16 = 32 ∨ (Rect.block (s := S2x16x2048x64) S1x1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1024x64.size a ≤ S2x16x2048x64.size a
  hwx1_3 : ∀ i : grid1.Coords, EltTy.bits .bf16 = 32 ∨ (Rect.block (s := S2x16x2048x64) S1x1x1024x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x16x1024x64.size a ≤ S2x16x2048x64.size a
  hwx2_0 : ∀ i : grid2.Coords, EltTy.bits .bf16 = 32 ∨ (Rect.block (s := S2x16x2048x64) S1x16x1024x64.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024x1024.size a ≤ S2x2048x1024.size a
  hwx2_3 : ∀ i : grid2.Coords, EltTy.bits .f32 = 32 ∨ (Rect.block (s := S2x2048x1024) S1x1024x1024.size (cc2_transform_3 i) (hinb2_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x16x512x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x16x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x16x512x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v2_0) S1x1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S1x1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_2) S1x1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v3) S1x16x1024x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S1x1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S1024x3072 : Shape := ⟨2, ![1024, 3072]⟩
abbrev S1024x1024 : Shape := ⟨2, ![1024, 1024]⟩
abbrev S1024 : Shape := ⟨1, ![1024]⟩
abbrev S2x2048x3072 : Shape := ⟨3, ![2, 2048, 3072]⟩
abbrev S2x2048x3x16x64 : Shape := ⟨5, ![2, 2048, 3, 16, 64]⟩
abbrev S3x2x16x2048x64 : Shape := ⟨5, ![3, 2, 16, 2048, 64]⟩
abbrev S1x2x16x2048x64 : Shape := ⟨5, ![1, 2, 16, 2048, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩
abbrev S2x2048x16x64 : Shape := ⟨4, ![2, 2048, 16, 64]⟩
abbrev S1x1x1024 : Shape := ⟨3, ![1, 1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x3072, .f32⟩
  | .hbm, ⟨2, _⟩ => ⟨S1024x1024, .f32⟩
  | .hbm, ⟨3, _⟩ => ⟨S1024, .f32⟩
  | .hbm, ⟨4, _⟩ => ⟨S2x2048x3072, .f32⟩
  | .hbm, ⟨5, _⟩ => ⟨S2x2048x3x16x64, .f32⟩
  | .hbm, ⟨6, _⟩ => ⟨S3x2x16x2048x64, .f32⟩
  | .hbm, ⟨7, _⟩ => ⟨S1x2x16x2048x64, .f32⟩
  | .hbm, ⟨8, _⟩ => ⟨S2x16x2048x64, .f32⟩
  | .hbm, ⟨9, _⟩ => ⟨S1x2x16x2048x64, .f32⟩
  | .hbm, ⟨10, _⟩ => ⟨S2x16x2048x64, .f32⟩
  | .hbm, ⟨11, _⟩ => ⟨S1x2x16x2048x64, .f32⟩
  | .hbm, ⟨12, _⟩ => ⟨S2x16x2048x64, .f32⟩
  | .hbm, ⟨13, _⟩ => ⟨S2x16x2048x2048, .f32⟩
  | .hbm, ⟨14, _⟩ => ⟨S_, .f32⟩
  | .hbm, ⟨15, _⟩ => ⟨S2x16x2048x2048, .f32⟩
  | .hbm, ⟨16, _⟩ => ⟨S2x16x2048x2048, .f32⟩
  | .hbm, ⟨17, _⟩ => ⟨S_, .f32⟩
  | .hbm, ⟨18, _⟩ => ⟨S2x16x2048, .f32⟩
  | .hbm, ⟨19, _⟩ => ⟨S_, .f32⟩
  | .hbm, ⟨20, _⟩ => ⟨S2x16x2048, .f32⟩
  | .hbm, ⟨21, _⟩ => ⟨S2x16x2048, .f32⟩
  | .hbm, ⟨22, _⟩ => ⟨S2x16x2048x1, .f32⟩
  | .hbm, ⟨23, _⟩ => ⟨S2x16x2048x2048, .f32⟩
  | .hbm, ⟨24, _⟩ => ⟨S2x16x2048x2048, .f32⟩
  | .hbm, ⟨25, _⟩ => ⟨S2x16x2048x2048, .f32⟩
  | .hbm, ⟨26, _⟩ => ⟨S_, .f32⟩
  | .hbm, ⟨27, _⟩ => ⟨S2x16x2048, .f32⟩
  | .hbm, ⟨28, _⟩ => ⟨S2x16x2048x1, .f32⟩
  | .hbm, ⟨29, _⟩ => ⟨S2x16x2048x2048, .f32⟩
  | .hbm, ⟨30, _⟩ => ⟨S2x16x2048x2048, .f32⟩
  | .hbm, ⟨31, _⟩ => ⟨S2x16x2048x64, .f32⟩
  | .hbm, ⟨32, _⟩ => ⟨S2x2048x16x64, .f32⟩
  | .hbm, ⟨33, _⟩ => ⟨S2x2048x1024, .f32⟩
  | .hbm, ⟨34, _⟩ => ⟨S2x2048x1024, .f32⟩
  | .hbm, ⟨35, _⟩ => ⟨S1x1x1024, .f32⟩
  | .hbm, ⟨36, _⟩ => ⟨S2x2048x1024, .f32⟩
  | .hbm, ⟨37, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]

class Facts₀ : Prop where
  shapeCasts_S2x2048x3072_S2x2048x3x16x64 : S2x2048x3072.ShapeCasts S2x2048x3x16x64
  transposes_S2x2048x3x16x64_S3x2x16x2048x64_2_0_3_1_4 : S2x2048x3x16x64.Transposes [2, 0, 3, 1, 4] S3x2x16x2048x64
  slices_S3x2x16x2048x64_S1x2x16x2048x64_0_0_0_0_0 : S3x2x16x2048x64.Slices ![0, 0, 0, 0, 0] S1x2x16x2048x64
  shapeCasts_S1x2x16x2048x64_S2x16x2048x64 : S1x2x16x2048x64.ShapeCasts S2x16x2048x64
  slices_S3x2x16x2048x64_S1x2x16x2048x64_1_0_0_0_0 : S3x2x16x2048x64.Slices ![1, 0, 0, 0, 0] S1x2x16x2048x64
  slices_S3x2x16x2048x64_S1x2x16x2048x64_2_0_0_0_0 : S3x2x16x2048x64.Slices ![2, 0, 0, 0, 0] S1x2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S1024x3072_S2x2048x3072_2_0_01_1_n_n_wf : DotDims.WF S2x2048x1024 S1024x3072 S2x2048x3072 [2] [0] [0, 1] [1] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_0_01_1_n_n_wf : DotDims.WF S2x2048x1024 S1024x1024 S2x2048x1024 [2] [0] [0, 1] [1] [] []

variable [Facts₀]

def dot_S2x2048x1024_S1024x3072_S2x2048x3072_2_0_01_1_n_n : DotDims S2x2048x1024 S1024x3072 S2x2048x3072 where
  lhsContracting := [2]
  rhsContracting := [0]
  lhsNonContracting := [0, 1]
  rhsNonContracting := [1]
  lhsBatch := []
  rhsBatch := []
  wf := dot_S2x2048x1024_S1024x3072_S2x2048x3072_2_0_01_1_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_0_01_1_n_n : DotDims S2x2048x1024 S1024x1024 S2x2048x1024 where
  lhsContracting := [2]
  rhsContracting := [0]
  lhsNonContracting := [0, 1]
  rhsNonContracting := [1]
  lhsBatch := []
  rhsBatch := []
  wf := dot_S2x2048x1024_S1024x1024_S2x2048x1024_2_0_01_1_n_n_wf

class Facts : Prop extends Facts₀ where

variable [Facts]
-- ==== Proof.KRun.lean ====
/-
  The tiled program's run with its result named: every weakly fair execution of @main terminates, nothing
  faulting, with the result array at the contents the last of the three launches leaves in it (the fold of that
  launch's write-backs), and the four argument arrays as launched.
-/
import proofs.«158943_j3393024164286_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the five segments of @main (two host stretches, three launches), the last thread state read
    against the final memory: the result array holds the last boundary's contents, the arguments are unchanged. -/
theorem run_result : θ_run defs (onTc (τ := τ) (main (F := F))) ⟨m, fun _ => 0, ρ⟩ (fun r => ∀ c : Dev nD,
      r.2.mem ((c.tc : Thread nD τ).loc main_v5) = W5 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v5 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.KernelIdeal.KRun

end
-- ==== Proof.Spec.lean ====
/-
  Multi-head self-attention over a batch of 2 sequences of 2048 tokens with 1024 features, 16 heads of 64 lanes,
  as functions on the extended reals, index by index. No program is mentioned here.

  * the packed projection: token (b, n) times a [1024, 3072] matrix whose columns are laid out as
    part (query, key, value) x head x lane; `proj X W s` is part `s` as a [2, 16, 2048, 64] array;
  * attention of one head: scores q_i . k_j scaled by `c`, each row shifted by its maximum and exponentiated
    (`wgt`); the two programs then differ in where they divide by the row's total:
    `attnK` divides the weighted sum of the value rows once, `attnR` divides every weight first;
  * the output projection: the heads' outputs concatenated along features, times a [1024, 1024] matrix, plus a
    bias row; `outR` contracts all 1024 features at once, `outK` adds the sixteen heads' products of 64 lanes
    one after the other onto a start value `z`.
-/
import Idealize.ShloMosaic.PureOps.Ideal
import Idealize.ShloMosaic.Lib.ValueIdx

noncomputable section

namespace Mha

open Idealize.ShloMosaic Idealize.ShloMosaic.ValueIdx

abbrev ArrX := (⟨3, ![2, 2048, 1024]⟩ : Shape).Idx → EReal
abbrev ArrWq := (⟨2, ![1024, 3072]⟩ : Shape).Idx → EReal
abbrev ArrWo := (⟨2, ![1024, 1024]⟩ : Shape).Idx → EReal
abbrev ArrB := (⟨1, ![1024]⟩ : Shape).Idx → EReal
abbrev ArrH := (⟨4, ![2, 16, 2048, 64]⟩ : Shape).Idx → EReal

/-- The packed projection's column of part `s` (0 query, 1 key, 2 value), head `h`, lane `d`. -/
def col (s : Fin 3) (h : Fin 16) (d : Fin 64) : Fin 3072 :=
  ⟨s.val * 1024 + h.val * 64 + d.val, by have := s.isLt; have := h.isLt; have := d.isLt; omega⟩

/-- The feature of head `h`, lane `d`, in the concatenation of the heads. -/
def feat (h : Fin 16) (d : Fin 64) : Fin 1024 :=
  ⟨h.val * 64 + d.val, by have := h.isLt; have := d.isLt; omega⟩

/-- Part `s` of token `(b, n)`'s projection, at head `h`, lane `d`. -/
def projAt (X : ArrX) (W : ArrWq) (s : Fin 3) (b : Fin 2) (h : Fin 16) (n : Fin 2048) (d : Fin 64) : EReal :=
  ∑ k : Fin 1024, X (ix3 b n k) * W (ix2 k (col s h d))

def proj (X : ArrX) (W : ArrWq) (s : Fin 3) : ArrH := fun i => projAt X W s (i 0) (i 1) (i 2) (i 3)

/-- The scaled score of query row `i` against key row `j` in head `(b, h)`. -/
def score (Q K : ArrH) (c : EReal) (b : Fin 2) (h : Fin 16) (i j : Fin 2048) : EReal :=
  (∑ d : Fin 64, Q (ix4 b h i d) * K (ix4 b h j d)) * c

/-- A row's maximum, folded from `bot`. -/
def rowMax (bot : EReal) (s : Fin 2048 → EReal) : EReal := (Finset.univ : Finset (Fin 2048)).fold max bot s

/-- The unnormalised weight of key row `j` for query row `i`: the exponential of the score less the row's maximum. -/
def wgt (Q K : ArrH) (c bot : EReal) (b : Fin 2) (h : Fin 16) (i j : Fin 2048) : EReal :=
  Ideal.exp (score Q K c b h i j - rowMax bot (score Q K c b h i))

/-- One division per output entry: the weighted sum of the value rows over the row's total weight. -/
def attnKAt (Q K V : ArrH) (c bot : EReal) (b : Fin 2) (h : Fin 16) (i : Fin 2048) (d : Fin 64) : EReal :=
  Ideal.div (∑ j : Fin 2048, wgt Q K c bot b h i j * V (ix4 b h j d)) (∑ j : Fin 2048, wgt Q K c bot b h i j)

def attnK (Q K V : ArrH) (c bot : EReal) : ArrH := fun i => attnKAt Q K V c bot (i 0) (i 1) (i 2) (i 3)

/-- Every weight divided by the row's total (a sum started from `z`), then the weighted sum of the value rows. -/
def attnRAt (Q K V : ArrH) (c bot z : EReal) (b : Fin 2) (h : Fin 16) (i : Fin 2048) (d : Fin 64) : EReal :=
  ∑ j : Fin 2048, Ideal.div (wgt Q K c bot b h i j) (z + ∑ j' : Fin 2048, wgt Q K c bot b h i j') * V (ix4 b h j d)

def attnR (Q K V : ArrH) (c bot z : EReal) : ArrH := fun i => attnRAt Q K V c bot z (i 0) (i 1) (i 2) (i 3)

/-- Head `h`'s share of output feature `e` of token `(b, n)`: its 64 lanes against their rows of the matrix. -/
def headTerm (A : ArrH) (Wo : ArrWo) (b : Fin 2) (n : Fin 2048) (e : Fin 1024) (h : Fin 16) : EReal :=
  ∑ d : Fin 64, A (ix4 b h n d) * Wo (ix2 (feat h d) e)

/-- The same with the head a natural number (nothing beyond the sixteenth head). -/
def headTermN (A : ArrH) (Wo : ArrWo) (b : Fin 2) (n : Fin 2048) (e : Fin 1024) (h : ℕ) : EReal :=
  if hh : h < 16 then headTerm A Wo b n e ⟨h, hh⟩ else 0

/-- A running total: the first `n` terms added one after the other onto `z`. -/
def accHeads (T : ℕ → EReal) (z : EReal) : ℕ → EReal
  | 0 => z
  | n + 1 => accHeads T z n + T n

/-- The output projection head by head: the sixteen heads' shares added onto `z` in order, then the bias. -/
def outKAt (A : ArrH) (Wo : ArrWo) (B : ArrB) (z : EReal) (b : Fin 2) (n : Fin 2048) (e : Fin 1024) : EReal :=
  accHeads (headTermN A Wo b n e) z 16 + B (ix1 e)

def outK (A : ArrH) (Wo : ArrWo) (B : ArrB) (z : EReal) : ArrX := fun i => outKAt A Wo B z (i 0) (i 1) (i 2)

/-- The output projection at once: all 1024 concatenated features (feature `k` is head `k / 64`, lane `k % 64`)
    against the matrix, then the bias. -/
def outRAt (A : ArrH) (Wo : ArrWo) (B : ArrB) (b : Fin 2) (n : Fin 2048) (e : Fin 1024) : EReal :=
  (∑ k : Fin 1024, A (ix4 b ⟨k.val / 64, by have := k.isLt; omega⟩ n ⟨k.val % 64, by omega⟩) * Wo (ix2 k e)) + B (ix1 e)

def outR (A : ArrH) (Wo : ArrWo) (B : ArrB) : ArrX := fun i => outRAt A Wo B (i 0) (i 1) (i 2)

/-- What the tiled program computes. -/
def resultK (X : ArrX) (Wq : ArrWq) (Wo : ArrWo) (B : ArrB) (c bot z : EReal) : ArrX :=
  outK (attnK (proj X Wq 0) (proj X Wq 1) (proj X Wq 2) c bot) Wo B z

/-- What the plain program computes. -/
def resultR (X : ArrX) (Wq : ArrWq) (Wo : ArrWo) (B : ArrB) (c bot z : EReal) : ArrX :=
  outR (attnR (proj X Wq 0) (proj X Wq 1) (proj X Wq 2) c bot z) Wo B

end Mha

end
-- ==== Proof.LibPlainDot.lean ====
/-
  A plain matrix product read at an entry, on the extended reals.

  For the dimension numbers "rows x contraction times contraction x columns" (`DotDims.plain M K N`: the left
  operand [M, K] contracted on its second axis, the right operand [K, N] on its first, no batch axis), both a
  `tpu.matmul` into the zero accumulator and the host's `dot_general` are, at an output entry (r, c), the plain sum

      sum over k < K of  l (r, k) * r (k, c)

  of products of extended reals: no rounding, no chunking and no accumulator are left. Nothing is assumed finite: the
  statement is about one and the same finite sum of products, only re-indexed from the contraction's own index type
  to `Fin K`. Generic in the three extents, so one statement serves a row block of a matrix and the whole matrix.
-/
import Idealize.ShloMosaic.PureOps.Ideal.Laws
import Idealize.ShloMosaic.Lib.ValueIdx

noncomputable section

namespace PlainDot

open Idealize.ShloMosaic Idealize.ShloMosaic.ValueIdx

variable (M K N : Nat)

/-- The left operand's index at output entry `j` and contraction position `k` is (row of `j`, `k`). -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single rfl j _).trans hk

/-- The right operand's index at output entry `j` and contraction position `k` is (`k`, column of `j`). -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ =>
    exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction's sum, over its own index type, is the sum over `k < K` of `l (row, k) * r (k, column)`. -/
theorem sum_eq (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K rfl rfl).symm]
  refine Finset.sum_congr rfl fun k _ => ?_
  rw [lhsIdx_eq, rhsIdx_eq]
  rfl

/-- A `tpu.matmul` into the zero accumulator, at an entry: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, (l (ix2 (j 0) k) : EReal) * r (ix2 k (j 1)) :=
  (Ideal.matmul_constant_zero_apply (DotDims.plain M K N) prec l r j).trans (sum_eq M K N l r j)

/-- The host's `dot_general`, at an entry: the same plain sum of products, whatever the schedule key. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, (l (ix2 (j 0) k) : EReal) * r (ix2 k (j 1)) :=
  (Ideal.dotGeneral_apply (DotDims.plain M K N) prec sched l r j).trans (sum_eq M K N l r j)

end PlainDot

end
-- ==== Proof.Stage0.lean ====
/-
  The first launch: the packed projection. Each grid point (b, t) takes 512 rows of batch b and the whole
  [1024, 3072] matrix, multiplies them, and writes the three parts (query, key, value) of the product, split by head
  and with the head axis moved in front of the row axis, into blocks of three [2, 16, 2048, 64] arrays.
  This file reads what one point stores, entry by entry.
-/
import proofs.«158943_j3393024164286_2_alg».proof.Proof.Gen.KernelIdeal.Frame
import proofs.«158943_j3393024164286_2_alg».proof.Proof.Spec
import proofs.«158943_j3393024164286_2_alg».proof.Proof.LibPlainDot
import Idealize.ShloMosaic.Lib.ValueLayout
import Idealize.ShloMosaic.Lib.Pipeline.Value
import Idealize.ShloMosaic.PureOps.Ideal.Laws

set_option maxRecDepth 16384

noncomputable section

namespace Cert.KernelIdeal.Stage0

open Cert.KernelIdeal Cert.KernelIdeal.Gen
open Idealize.ShloMosaic Idealize.ShloMosaic.ValueIdx

/-- The block product reshaped to [512, 3, 16, 64]: entry (r, s, h, d) is row r of the block against column
    s * 1024 + h * 64 + d of the matrix. -/
theorem pay1_apply (x0 : Vec Ideal S1x512x1024 .f32) (x1 : Vec Ideal S1024x3072 .bf16)
    (r : Fin 512) (s : Fin 3) (h : Fin 16) (d : Fin 64) :
    k0_pay1 x0 x1 (ix4 r s h d)
      = ∑ k : Fin 1024, (x0 (ix3 (0 : Fin 1) r k) : EReal) * x1 (ix2 k (Mha.col s h d)) := by
  unfold k0_pay1
  refine (shapeCast_apply _ _ (ix4 r s h d) (ix2 r (Mha.col s h d)) (by
    rw [Shape.rowMajor_val_two, Shape.rowMajor_val_four]
    show r.val * 3072 + (s.val * 1024 + h.val * 64 + d.val) = ((r.val * 3 + s.val) * 16 + h.val) * 64 + d.val
    omega)).trans ?_
  refine (PlainDot.matmul_zero_apply 512 1024 3072 none _ _ (ix2 r (Mha.col s h d))).trans ?_
  refine Finset.sum_congr rfl fun k _ => ?_
  congr 1
  · show shapeCast S512x1024 x0 shapeCasts_S1x512x1024_S512x1024 (ix2 r k) = _
    exact shapeCast_1ab_ab_apply x0 _ r k
  · exact congrFun (shapeCast_self x1 _) _

/-- A part of the product as it is stored: the part cut out, its unit axis dropped, heads moved in front of rows,
    a unit axis put in front. Entry (u, h, r, d) of the stored block is entry (r, s, h, d) of the product. -/
theorem pay2_apply (x0 : Vec Ideal S1x512x1024 .f32) (x1 : Vec Ideal S1024x3072 .bf16)
    (u : Fin 1) (h : Fin 16) (r : Fin 512) (d : Fin 64) :
    k0_pay2 x0 x1 (ix4 u h r d)
      = ∑ k : Fin 1024, (x0 (ix3 (0 : Fin 1) r k) : EReal) * x1 (ix2 k (Mha.col 0 h d)) := by
  unfold k0_pay2
  dsimp only
  refine (shapeCast_abc_1abc_apply _ _ u h r d).trans ?_
  refine (truncf_apply (ψ := .bf16) _ bitsLt_bf16_f32 (ix3 h r d)).trans ?_
  refine (transpose_apply [1, 0, 2] _ _ (ix3 h r d) (ix3 r h d)
    (fun b => match b with | ⟨0, _⟩ => rfl | ⟨1, _⟩ => rfl | ⟨2, _⟩ => rfl)).trans ?_
  refine (shapeCast_apply _ _ (ix3 r h d) (ix4 r (0 : Fin 1) h d) (by
    rw [Shape.rowMajor_val_four, Shape.rowMajor_val_three]
    show ((r.val * 1 + 0) * 16 + h.val) * 64 + d.val = (r.val * 16 + h.val) * 64 + d.val
    omega)).trans ?_
  refine (slice4_axis1_apply 0 _ _ r (0 : Fin 1) h d (0 : Fin 3) rfl).trans ?_
  exact pay1_apply x0 x1 r 0 h d

theorem pay3_apply (x0 : Vec Ideal S1x512x1024 .f32) (x1 : Vec Ideal S1024x3072 .bf16)
    (u : Fin 1) (h : Fin 16) (r : Fin 512) (d : Fin 64) :
    k0_pay3 x0 x1 (ix4 u h r d)
      = ∑ k : Fin 1024, (x0 (ix3 (0 : Fin 1) r k) : EReal) * x1 (ix2 k (Mha.col 1 h d)) := by
  unfold k0_pay3
  dsimp only
  refine (shapeCast_abc_1abc_apply _ _ u h r d).trans ?_
  refine (truncf_apply (ψ := .bf16) _ bitsLt_bf16_f32 (ix3 h r d)).trans ?_
  refine (transpose_apply [1, 0, 2] _ _ (ix3 h r d) (ix3 r h d)
    (fun b => match b with | ⟨0, _⟩ => rfl | ⟨1, _⟩ => rfl | ⟨2, _⟩ => rfl)).trans ?_
  refine (shapeCast_apply _ _ (ix3 r h d) (ix4 r (0 : Fin 1) h d) (by
    rw [Shape.rowMajor_val_four, Shape.rowMajor_val_three]
    show ((r.val * 1 + 0) * 16 + h.val) * 64 + d.val = (r.val * 16 + h.val) * 64 + d.val
    omega)).trans ?_
  refine (slice4_axis1_apply 1 _ _ r (0 : Fin 1) h d (1 : Fin 3) rfl).trans ?_
  exact pay1_apply x0 x1 r 1 h d

theorem pay4_apply (x0 : Vec Ideal S1x512x1024 .f32) (x1 : Vec Ideal S1024x3072 .bf16)
    (u : Fin 1) (h : Fin 16) (r : Fin 512) (d : Fin 64) :
    k0_pay4 x0 x1 (ix4 u h r d)
      = ∑ k : Fin 1024, (x0 (ix3 (0 : Fin 1) r k) : EReal) * x1 (ix2 k (Mha.col 2 h d)) := by
  unfold k0_pay4
  dsimp only
  refine (shapeCast_abc_1abc_apply _ _ u h r d).trans ?_
  refine (truncf_apply (ψ := .bf16) _ bitsLt_bf16_f32 (ix3 h r d)).trans ?_
  refine (transpose_apply [1, 0, 2] _ _ (ix3 h r d) (ix3 r h d)
    (fun b => match b with | ⟨0, _⟩ => rfl | ⟨1, _⟩ => rfl | ⟨2, _⟩ => rfl)).trans ?_
  refine (shapeCast_apply _ _ (ix3 r h d) (ix4 r (0 : Fin 1) h d) (by
    rw [Shape.rowMajor_val_four, Shape.rowMajor_val_three]
    show ((r.val * 1 + 0) * 16 + h.val) * 64 + d.val = (r.val * 16 + h.val) * 64 + d.val
    omega)).trans ?_
  refine (slice4_axis1_apply 2 _ _ r (0 : Fin 1) h d (2 : Fin 3) rfl).trans ?_
  exact pay1_apply x0 x1 r 2 h d

end Cert.KernelIdeal.Stage0

end
-- ==== Proof.Stage0Arr.lean ====
/-
  The first launch, from blocks to arrays. Point t = (b, n) of the 2 x 4 grid writes, into each of the three
  [2, 16, 2048, 64] arrays, the block of batch b, all heads, rows 512 n .. 512 n + 511, all lanes; its input blocks
  are the same rows of batch b of the [2, 2048, 1024] array and the whole matrix. The blocks tile each array, so each
  array ends as one function of the launch's two inputs: a part of the packed projection.
-/
import proofs.«158943_j3393024164286_2_alg».proof.Proof.Stage0

set_option maxRecDepth 16384

noncomputable section

namespace Cert.KernelIdeal.Stage0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the row window moves with the output windows (batch and row block), the
    matrix window stays, the three output windows move together, and every block index is in range. -/
theorem idx_facts : ∀ t : Fin cfg0.N,
    win0_0.index t (0 : Fin 3) = win0_2.index t (0 : Fin 4)
    ∧ win0_0.index t (1 : Fin 3) = win0_2.index t (2 : Fin 4)
    ∧ win0_0.index t (2 : Fin 3) = 0
    ∧ win0_1.index t (0 : Fin 2) = 0 ∧ win0_1.index t (1 : Fin 2) = 0
    ∧ win0_2.index t (1 : Fin 4) = 0 ∧ win0_2.index t (3 : Fin 4) = 0
    ∧ win0_2.index t (0 : Fin 4) ≤ 1 ∧ win0_2.index t (2 : Fin 4) ≤ 3
    ∧ win0_3.index t = win0_2.index t ∧ win0_4.index t = win0_2.index t :=
  (by decide +kernel : ∀ t : Fin grid0.N, _)

/-- Every (batch, row block) is some point's. -/
theorem idx_onto : ∀ (q0 : Fin 2) (q2 : Fin 4), ∃ t : Fin cfg0.N, win0_2.index t = ![q0.val, 0, q2.val, 0] :=
  (by decide +kernel : ∀ (q0 : Fin 2) (q2 : Fin 4), ∃ t : Fin grid0.N, win0_2.index t = ![q0.val, 0, q2.val, 0])

/-- What a point stores into the query array, against the whole arrays: if the point's row block reads the array
    `A0` at the output index's batch and row, and its matrix block is the array `A1`, the stored entry is the
    projection's entry. Stated over plain blocks and arrays; the coordinates are tied by the hypotheses. -/
theorem point_part (s : Fin 3) (pay : Vec Ideal S1x512x1024 .f32 → Vec Ideal S1024x3072 .bf16 → FVec Ideal S1x16x512x64 .bf16)
    (hpay : ∀ x0 x1 (u : Fin 1) (h : Fin 16) (r : Fin 512) (d : Fin 64), pay x0 x1 (ix4 u h r d)
      = ∑ k : Fin 1024, (x0 (ix3 (0 : Fin 1) r k) : EReal) * x1 (ix2 k (Mha.col s h d)))
    (x0 : Vec Ideal S1x512x1024 .f32) (x1 : Vec Ideal S1024x3072 .bf16)
    (A0 : Mha.ArrX) (A1 : Mha.ArrWq) (j : S1x16x512x64.Idx) (i : S2x16x2048x64.Idx)
    (e0 : ∀ k : Fin 1024, (x0 (ix3 (0 : Fin 1) (j 2) k) : EReal) = A0 (ix3 (i 0) (i 2) k))
    (e1 : ∀ y : S1024x3072.Idx, (x1 y : EReal) = A1 y)
    (h1 : (i 1).val = (j 1).val) (h3 : (i 3).val = (j 3).val) :
    (pay x0 x1 j : EReal) = Mha.proj A0 A1 s i := by
  obtain ⟨u, h, r, d, rfl⟩ : ∃ (u : Fin 1) (h : Fin 16) (r : Fin 512) (d : Fin 64), j = ix4 u h r d :=
    ⟨j 0, j 1, j 2, j 3, eq_ix4 j⟩
  have e0' : ∀ k : Fin 1024, (x0 (ix3 (0 : Fin 1) r k) : EReal) = A0 (ix3 (i 0) (i 2) k) := e0
  have c1 : (i 1 : Fin 16) = h := Fin.ext h1
  have c3 : (i 3 : Fin 64) = d := Fin.ext h3
  rw [hpay]
  show _ = Mha.projAt A0 A1 s (i 0) (i 1) (i 2) (i 3)
  unfold Mha.projAt
  rw [c1, c3]
  refine Finset.sum_congr rfl fun k _ => ?_
  rw [e0' k, e1]

/-- The row block of point t at a block index of the output: the array at the output's batch and row. -/
theorem rows_at (c : Dev nD) (t : Fin cfg0.N) (j : S1x16x512x64.Idx) (i : S2x16x2048x64.Idx)
    (hi0 : (i 0).val = win0_2.index t (0 : Fin 4) * 1 + 1 * (j 0).val)
    (hi2 : (i 2).val = win0_2.index t (2 : Fin 4) * 512 + 1 * (j 2).val) (k : Fin 1024) :
    (iblk0 V c 0 t (ix3 (0 : Fin 1) (j 2) k) : EReal) = V c main_arg0 (ix3 (i 0) (i 2) k) := by
  obtain ⟨a0, a1, a2, a3, a4, a5, a6, a7, a8, a9, a10⟩ := idx_facts t
  show V c main_arg0 (((cfg0.win 0).blk t).view.emb (ix3 (0 : Fin 1) (j 2) k)) = _
  refine congrArg (V c main_arg0) (funext fun a => Fin.ext ?_)
  match a with
  | ⟨0, _⟩ =>
    show win0_0.index t (0 : Fin 3) * 1 + 1 * 0 = (i 0).val
    have hj : (j 0).val < 1 := (j 0).isLt
    omega
  | ⟨1, _⟩ =>
    show win0_0.index t (1 : Fin 3) * 512 + 1 * (j 2).val = (i 2).val
    omega
  | ⟨2, _⟩ =>
    show win0_0.index t (2 : Fin 3) * 1024 + 1 * k.val = k.val
    omega

/-- The matrix block of every point is the whole matrix. -/
theorem matrix_at (c : Dev nD) (t : Fin cfg0.N) (y : S1024x3072.Idx) :
    (iblk0 V c 1 t y : EReal) = V c main_v0 y := by
  obtain ⟨a0, a1, a2, a3, a4, a5, a6, a7, a8, a9, a10⟩ := idx_facts t
  show V c main_v0 (((cfg0.win 1).blk t).view.emb y) = _
  refine congrArg (V c main_v0) (funext fun a => Fin.ext ?_)
  match a with
  | ⟨0, _⟩ => show win0_1.index t (0 : Fin 2) * 1024 + 1 * (y 0).val = (y 0).val; omega
  | ⟨1, _⟩ => show win0_1.index t (1 : Fin 2) * 3072 + 1 * (y 1).val = (y 1).val; omega

/-- WHAT POINT t WRITES BACK into array 0 of the three is block t of part 0 of the projection. -/
theorem flushed2_eq (c : Dev nD) (t : Fin cfg0.N) :
    (dat0 V c).flushed 2 t = ((cfg0.win 2).blk t).view.read (Elt Ideal) (Mha.proj (V c main_arg0) (V c main_v0) 0) := by
  show (cfg0.win 2).cut (grid0.coords t) ((dat0 V c).after 2 t) = _
  rw [after0_2]
  unfold out0_2
  rw [View.canon_unit_zero hz4]
  simp only [View.ld_unit_zero (S := S1x512x1024) hz3, View.ld_unit_zero (S := S1024x3072) hz2]
  obtain ⟨a0, a1, a2, a3, a4, a5, a6, a7, a8, a9, a10⟩ := idx_facts t
  funext j
  show (k0_pay2 (iblk0 V c 0 t) (iblk0 V c 1 t) j : EReal)
    = Mha.proj (V c main_arg0) (V c main_v0) 0 (((cfg0.win 2).blk t).view.emb j)
  refine point_part 0 k0_pay2 pay2_apply _ _ _ _ j _
    (rows_at V c t j _ ?_ ?_) (matrix_at V c t) ?_ ?_
  · show win0_2.index t (0 : Fin 4) * 1 + 1 * (j 0).val = win0_2.index t (0 : Fin 4) * 1 + 1 * (j 0).val
    rfl
  · show win0_2.index t (2 : Fin 4) * 512 + 1 * (j 2).val = win0_2.index t (2 : Fin 4) * 512 + 1 * (j 2).val
    rfl
  · show win0_2.index t (1 : Fin 4) * 16 + 1 * (j 1).val = (j 1).val
    omega
  · show win0_2.index t (3 : Fin 4) * 64 + 1 * (j 3).val = (j 3).val
    omega

/-- An index of the array is in point t's block iff each coordinate is in the block's range on its axis. -/
theorem mem_blk2 (t : Fin cfg0.N) (i : S2x16x2048x64.Idx) :
    i ∈ ((cfg0.win 2).blk t).view.set ↔ ∀ a : Fin 4, win0_2.index t a * S1x16x512x64.size a ≤ (i a).val
      ∧ (i a).val < win0_2.index t a * S1x16x512x64.size a + S1x16x512x64.size a := by
  show i ∈ ((View.whole main_v2_0).slice (win0_2.rect t)).set ↔ _
  rw [View.set_slice_whole, Rect.mem_set_unit]
  exact Iff.rfl

/-- Every index of the array is in the block of the point of its batch and row block. -/
theorem cover2 (i : S2x16x2048x64.Idx) :
    ∃ t : Fin cfg0.N, (cfg0.win 2).flush t = true ∧ i ∈ ((cfg0.win 2).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto ⟨(i 0).val, hi0⟩ ⟨(i 2).val / 512, by omega⟩
  obtain ⟨a0, a1, a2, a3, a4, a5, a6, a7, a8, a9, a10⟩ := idx_facts t
  have q0 : win0_2.index t (0 : Fin 4) = (i 0).val := congrFun ht 0
  have q2 : win0_2.index t (2 : Fin 4) = (i 2).val / 512 := congrFun ht 2
  refine ⟨t, flush0_2 t, ?_⟩
  rw [mem_blk2]
  intro a
  match a with
  | ⟨0, _⟩ =>
    show win0_2.index t (0 : Fin 4) * 1 ≤ (i 0).val ∧ (i 0).val < win0_2.index t (0 : Fin 4) * 1 + 1
    omega
  | ⟨1, _⟩ =>
    show win0_2.index t (1 : Fin 4) * 16 ≤ (i 1).val ∧ (i 1).val < win0_2.index t (1 : Fin 4) * 16 + 16
    omega
  | ⟨2, _⟩ =>
    show win0_2.index t (2 : Fin 4) * 512 ≤ (i 2).val ∧ (i 2).val < win0_2.index t (2 : Fin 4) * 512 + 512
    omega
  | ⟨3, _⟩ =>
    show win0_2.index t (3 : Fin 4) * 64 ≤ (i 3).val ∧ (i 3).val < win0_2.index t (3 : Fin 4) * 64 + 64
    omega

/-- THE ARRAY after the launch: part 0 of the projection of the launch's two inputs. -/
theorem final2 (c : Dev nD) :
    (dat0 V c).arrAt 2 cfg0.N = Mha.proj (V c main_arg0) (V c main_v0) 0 :=
  (dat0 V c).arrAt_eq_of_cover 2 _ (fun t _ => flushed2_eq V c t) cover2

/-- WHAT POINT t WRITES BACK into array 1 of the three is block t of part 1 of the projection. -/
theorem flushed3_eq (c : Dev nD) (t : Fin cfg0.N) :
    (dat0 V c).flushed 3 t = ((cfg0.win 3).blk t).view.read (Elt Ideal) (Mha.proj (V c main_arg0) (V c main_v0) 1) := by
  show (cfg0.win 3).cut (grid0.coords t) ((dat0 V c).after 3 t) = _
  rw [after0_3]
  unfold out0_3
  rw [View.canon_unit_zero hz4]
  simp only [View.ld_unit_zero (S := S1x512x1024) hz3, View.ld_unit_zero (S := S1024x3072) hz2]
  obtain ⟨a0, a1, a2, a3, a4, a5, a6, a7, a8, a9, a10⟩ := idx_facts t
  funext j
  show (k0_pay3 (iblk0 V c 0 t) (iblk0 V c 1 t) j : EReal)
    = Mha.proj (V c main_arg0) (V c main_v0) 1 (((cfg0.win 3).blk t).view.emb j)
  refine point_part 1 k0_pay3 pay3_apply _ _ _ _ j _
    (rows_at V c t j _ ?_ ?_) (matrix_at V c t) ?_ ?_
  · show win0_3.index t (0 : Fin 4) * 1 + 1 * (j 0).val = win0_2.index t (0 : Fin 4) * 1 + 1 * (j 0).val
    rw [a9]
  · show win0_3.index t (2 : Fin 4) * 512 + 1 * (j 2).val = win0_2.index t (2 : Fin 4) * 512 + 1 * (j 2).val
    rw [a9]
  · show win0_3.index t (1 : Fin 4) * 16 + 1 * (j 1).val = (j 1).val
    rw [a9]
    omega
  · show win0_3.index t (3 : Fin 4) * 64 + 1 * (j 3).val = (j 3).val
    rw [a9]
    omega

/-- An index of the array is in point t's block iff each coordinate is in the block's range on its axis. -/
theorem mem_blk3 (t : Fin cfg0.N) (i : S2x16x2048x64.Idx) :
    i ∈ ((cfg0.win 3).blk t).view.set ↔ ∀ a : Fin 4, win0_3.index t a * S1x16x512x64.size a ≤ (i a).val
      ∧ (i a).val < win0_3.index t a * S1x16x512x64.size a + S1x16x512x64.size a := by
  show i ∈ ((View.whole main_v2_1).slice (win0_3.rect t)).set ↔ _
  rw [View.set_slice_whole, Rect.mem_set_unit]
  exact Iff.rfl

/-- Every index of the array is in the block of the point of its batch and row block. -/
theorem cover3 (i : S2x16x2048x64.Idx) :
    ∃ t : Fin cfg0.N, (cfg0.win 3).flush t = true ∧ i ∈ ((cfg0.win 3).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto ⟨(i 0).val, hi0⟩ ⟨(i 2).val / 512, by omega⟩
  obtain ⟨a0, a1, a2, a3, a4, a5, a6, a7, a8, a9, a10⟩ := idx_facts t
  have q0 : win0_2.index t (0 : Fin 4) = (i 0).val := congrFun ht 0
  have q2 : win0_2.index t (2 : Fin 4) = (i 2).val / 512 := congrFun ht 2
  refine ⟨t, flush0_3 t, ?_⟩
  rw [mem_blk3]
  intro a
  match a with
  | ⟨0, _⟩ =>
    show win0_3.index t (0 : Fin 4) * 1 ≤ (i 0).val ∧ (i 0).val < win0_3.index t (0 : Fin 4) * 1 + 1
    rw [a9]
    omega
  | ⟨1, _⟩ =>
    show win0_3.index t (1 : Fin 4) * 16 ≤ (i 1).val ∧ (i 1).val < win0_3.index t (1 : Fin 4) * 16 + 16
    rw [a9]
    omega
  | ⟨2, _⟩ =>
    show win0_3.index t (2 : Fin 4) * 512 ≤ (i 2).val ∧ (i 2).val < win0_3.index t (2 : Fin 4) * 512 + 512
    rw [a9]
    omega
  | ⟨3, _⟩ =>
    show win0_3.index t (3 : Fin 4) * 64 ≤ (i 3).val ∧ (i 3).val < win0_3.index t (3 : Fin 4) * 64 + 64
    rw [a9]
    omega

/-- THE ARRAY after the launch: part 1 of the projection of the launch's two inputs. -/
theorem final3 (c : Dev nD) :
    (dat0 V c).arrAt 3 cfg0.N = Mha.proj (V c main_arg0) (V c main_v0) 1 :=
  (dat0 V c).arrAt_eq_of_cover 3 _ (fun t _ => flushed3_eq V c t) cover3

/-- WHAT POINT t WRITES BACK into array 2 of the three is block t of part 2 of the projection. -/
theorem flushed4_eq (c : Dev nD) (t : Fin cfg0.N) :
    (dat0 V c).flushed 4 t = ((cfg0.win 4).blk t).view.read (Elt Ideal) (Mha.proj (V c main_arg0) (V c main_v0) 2) := by
  show (cfg0.win 4).cut (grid0.coords t) ((dat0 V c).after 4 t) = _
  rw [after0_4]
  unfold out0_4
  rw [View.canon_unit_zero hz4]
  simp only [View.ld_unit_zero (S := S1x512x1024) hz3, View.ld_unit_zero (S := S1024x3072) hz2]
  obtain ⟨a0, a1, a2, a3, a4, a5, a6, a7, a8, a9, a10⟩ := idx_facts t
  funext j
  show (k0_pay4 (iblk0 V c 0 t) (iblk0 V c 1 t) j : EReal)
    = Mha.proj (V c main_arg0) (V c main_v0) 2 (((cfg0.win 4).blk t).view.emb j)
  refine point_part 2 k0_pay4 pay4_apply _ _ _ _ j _
    (rows_at V c t j _ ?_ ?_) (matrix_at V c t) ?_ ?_
  · show win0_4.index t (0 : Fin 4) * 1 + 1 * (j 0).val = win0_2.index t (0 : Fin 4) * 1 + 1 * (j 0).val
    rw [a10]
  · show win0_4.index t (2 : Fin 4) * 512 + 1 * (j 2).val = win0_2.index t (2 : Fin 4) * 512 + 1 * (j 2).val
    rw [a10]
  · show win0_4.index t (1 : Fin 4) * 16 + 1 * (j 1).val = (j 1).val
    rw [a10]
    omega
  · show win0_4.index t (3 : Fin 4) * 64 + 1 * (j 3).val = (j 3).val
    rw [a10]
    omega

/-- An index of the array is in point t's block iff each coordinate is in the block's range on its axis. -/
theorem mem_blk4 (t : Fin cfg0.N) (i : S2x16x2048x64.Idx) :
    i ∈ ((cfg0.win 4).blk t).view.set ↔ ∀ a : Fin 4, win0_4.index t a * S1x16x512x64.size a ≤ (i a).val
      ∧ (i a).val < win0_4.index t a * S1x16x512x64.size a + S1x16x512x64.size a := by
  show i ∈ ((View.whole main_v2_2).slice (win0_4.rect t)).set ↔ _
  rw [View.set_slice_whole, Rect.mem_set_unit]
  exact Iff.rfl

/-- Every index of the array is in the block of the point of its batch and row block. -/
theorem cover4 (i : S2x16x2048x64.Idx) :
    ∃ t : Fin cfg0.N, (cfg0.win 4).flush t = true ∧ i ∈ ((cfg0.win 4).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto ⟨(i 0).val, hi0⟩ ⟨(i 2).val / 512, by omega⟩
  obtain ⟨a0, a1, a2, a3, a4, a5, a6, a7, a8, a9, a10⟩ := idx_facts t
  have q0 : win0_2.index t (0 : Fin 4) = (i 0).val := congrFun ht 0
  have q2 : win0_2.index t (2 : Fin 4) = (i 2).val / 512 := congrFun ht 2
  refine ⟨t, flush0_4 t, ?_⟩
  rw [mem_blk4]
  intro a
  match a with
  | ⟨0, _⟩ =>
    show win0_4.index t (0 : Fin 4) * 1 ≤ (i 0).val ∧ (i 0).val < win0_4.index t (0 : Fin 4) * 1 + 1
    rw [a10]
    omega
  | ⟨1, _⟩ =>
    show win0_4.index t (1 : Fin 4) * 16 ≤ (i 1).val ∧ (i 1).val < win0_4.index t (1 : Fin 4) * 16 + 16
    rw [a10]
    omega
  | ⟨2, _⟩ =>
    show win0_4.index t (2 : Fin 4) * 512 ≤ (i 2).val ∧ (i 2).val < win0_4.index t (2 : Fin 4) * 512 + 512
    rw [a10]
    omega
  | ⟨3, _⟩ =>
    show win0_4.index t (3 : Fin 4) * 64 ≤ (i 3).val ∧ (i 3).val < win0_4.index t (3 : Fin 4) * 64 + 64
    rw [a10]
    omega

/-- THE ARRAY after the launch: part 2 of the projection of the launch's two inputs. -/
theorem final4 (c : Dev nD) :
    (dat0 V c).arrAt 4 cfg0.N = Mha.proj (V c main_arg0) (V c main_v0) 2 :=
  (dat0 V c).arrAt_eq_of_cover 4 _ (fun t _ => flushed4_eq V c t) cover4

end Cert.KernelIdeal.Stage0

end
-- ==== Proof.LibDotRows.lean ====
/-
  A matrix times the transpose of a matrix, read at an entry, on the extended reals.

  For the dimension numbers "rows x contraction times columns x contraction" (`DotDims.transposedRhs M K N`: the left
  operand [M, K] and the right operand [N, K] both contracted on their second axis, no batch axis: the product of the
  left operand with the transpose of the right one, as a linear layer `x @ W.T` writes it), both a `tpu.matmul` into
  the zero accumulator and the host's `dot_general` are, at an output entry (r, c), the plain sum

      sum over k < K of  l (r, k) * w (c, k)

  of products of extended reals: no rounding, no chunking and no accumulator are left. Nothing is assumed finite: the
  statement is about one and the same finite sum of products, only re-indexed from the contraction's own index type
  to `Fin K`. Generic in the three extents, so one statement serves a block of rows against a block of rows and the
  whole matrices. The twin of the plain product (left [M, K], right [K, N]) for a transposed right operand.
-/
import Idealize.ShloMosaic.PureOps.Ideal.Laws
import Idealize.ShloMosaic.Lib.ValueIdx

noncomputable section

namespace DotRows

open Idealize.ShloMosaic Idealize.ShloMosaic.ValueIdx

variable (M K N : Nat)

/-- The left operand's index at output entry `j` and contraction position `k` is (row of `j`, `k`). -/
theorem lhsIdx_eq (j : (⟨2, ![M, N]⟩ : Shape).Idx) (k : Fin K) :
    (DotDims.transposedRhs M K N).lhsIdx j ((contrEquiv1 (DotDims.transposedRhs M K N) K rfl rfl).symm k) = ix2 (j 0) k := by
  have hk := contrEquiv1_symm_val (DotDims.transposedRhs M K N) K rfl rfl k
  funext a
  apply Fin.ext
  match a with
  | ⟨0, _⟩ =>
    show ((DotDims.transposedRhs M K N).lhsIdx j _ 0).val = (j 0).val
    unfold DotDims.lhsIdx
    rw [dif_neg (show ¬(0 : Fin 2) ∈ (DotDims.transposedRhs M K N).lhsBatch from List.not_mem_nil),
      dif_pos (show (0 : Fin 2) ∈ (DotDims.transposedRhs M K N).lhsNonContracting from List.mem_singleton.mpr rfl)]
    rfl
  | ⟨1, _⟩ =>
    exact ((DotDims.transposedRhs M K N).lhsIdx_val_of_single rfl j _).trans hk

/-- The right operand's index at output entry `j` and contraction position `k` is (column of `j`, `k`): the right
    operand is read along its own row, the row the output's column names. -/
theorem rhsIdx_eq (j : (⟨2, ![M, N]⟩ : Shape).Idx) (k : Fin K) :
    (DotDims.transposedRhs M K N).rhsIdx j ((contrEquiv1 (DotDims.transposedRhs M K N) K rfl rfl).symm k) = ix2 (j 1) k := by
  have hk := contrEquiv1_symm_val (DotDims.transposedRhs M K N) K rfl rfl k
  funext a
  apply Fin.ext
  match a with
  | ⟨0, _⟩ =>
    show ((DotDims.transposedRhs M K N).rhsIdx j _ 0).val = (j 1).val
    unfold DotDims.rhsIdx
    rw [dif_neg (show ¬(0 : Fin 2) ∈ (DotDims.transposedRhs M K N).rhsBatch from List.not_mem_nil),
      dif_pos (show (0 : Fin 2) ∈ (DotDims.transposedRhs M K N).rhsNonContracting from List.mem_singleton.mpr rfl)]
    rfl
  | ⟨1, _⟩ =>
    exact ((DotDims.transposedRhs M K N).rhsIdx_val_of_single rfl j _).trans hk

/-- The contraction's sum, over its own index type, is the sum over `k < K` of `l (row, k) * w (column, k)`. -/
theorem sum_eq (l : (⟨2, ![M, K]⟩ : Shape).Idx → EReal) (w : (⟨2, ![N, K]⟩ : Shape).Idx → EReal)
    (j : (⟨2, ![M, N]⟩ : Shape).Idx) :
    ∑ q : (DotDims.transposedRhs M K N).contr.Idx,
        l ((DotDims.transposedRhs M K N).lhsIdx j q) * w ((DotDims.transposedRhs M K N).rhsIdx j q)
      = ∑ k : Fin K, l (ix2 (j 0) k) * w (ix2 (j 1) k) := by
  rw [← Equiv.sum_comp (contrEquiv1 (DotDims.transposedRhs M K N) K rfl rfl).symm]
  refine Finset.sum_congr rfl fun k _ => ?_
  rw [lhsIdx_eq, rhsIdx_eq]
  rfl

/-- A `tpu.matmul` into the zero accumulator, at an entry: the plain sum of products along the two rows. -/
theorem matmul_zero_apply {φ₁ φ₂ : FTy} (prec : Option ContractPrecision)
    (l : FVec Ideal ⟨2, ![M, K]⟩ φ₁) (w : FVec Ideal ⟨2, ![N, K]⟩ φ₂) (j : (⟨2, ![M, N]⟩ : Shape).Idx) :
    FloatOps.matmul (DotDims.transposedRhs M K N) prec l w (constant ⟨2, ![M, N]⟩ .f32 0x00000000#32) j
      = ∑ k : Fin K, (l (ix2 (j 0) k) : EReal) * w (ix2 (j 1) k) :=
  (Ideal.matmul_constant_zero_apply (DotDims.transposedRhs M K N) prec l w j).trans (sum_eq M K N l w j)

/-- The host's `dot_general`, at an entry: the same plain sum of products, whatever the schedule key. -/
theorem dotGeneral_apply {φ₁ φ₂ : FTy} (prec : Option ContractPrecision) (sched : HostSchedule)
    (l : FVec Ideal ⟨2, ![M, K]⟩ φ₁) (w : FVec Ideal ⟨2, ![N, K]⟩ φ₂) (j : (⟨2, ![M, N]⟩ : Shape).Idx) :
    FloatOps.dotGeneral (DotDims.transposedRhs M K N) prec sched l w j
      = ∑ k : Fin K, (l (ix2 (j 0) k) : EReal) * w (ix2 (j 1) k) :=
  (Ideal.dotGeneral_apply (DotDims.transposedRhs M K N) prec sched l w j).trans (sum_eq M K N l w j)

end DotRows

end
-- ==== Proof.LibRowMax.lean ====
/-
  The maximum of each row of a matrix, read at a row.

  On the extended reals the maximum of an [a, b] array over its second axis, read at row r, is the fold of max, from the
  accumulator's value, over the columns k of the entry (r, k).
-/
import Idealize.ShloMosaic.Lib.ValueLayout
import Idealize.ShloMosaic.PureOps.Ideal.Laws

namespace RowMax

open Idealize.ShloMosaic Idealize.ShloMosaic.ValueIdx

/-- The row maximum at row r: the fold of max over that row's entries. -/
theorem rowMax_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ v acc h hφ hacc (ix1 r)
      = (Finset.univ : Finset (Fin b)).fold max (Ideal.ofBits φ acc) (fun k => v (ix2 r k)) := by
  refine (Ideal.multiReduction_maximumf_single v acc h hφ hacc (ix1 r)).trans ?_
  show (Finset.univ : Finset (Fin b)).fold max (Ideal.ofBits φ acc) (fun k => v (h.lift (ix1 r) k)) = _
  refine congrArg (fun f => (Finset.univ : Finset (Fin b)).fold max (Ideal.ofBits φ acc) f) (funext fun k => congrArg v (funext fun d => Fin.ext ?_))
  match d with
  | ⟨0, _⟩ => rfl
  | ⟨1, _⟩ => rfl

end RowMax
-- ==== Proof.LibKeepdims.lean ====
/-
  Arrays with a kept unit axis, read at an index given by coordinates.

  A row reduction that keeps its axis (the sum over the columns of an [a, b] array, kept as an [a, 1] column) is three
  operations: the sum over the second axis into [a], a cast of [a] to [a, 1], and, where the column meets an [a, b]
  array again, its broadcast along the rows. Read at coordinates: the sum at row r is the sum over the columns k of the
  entry (r, k); the cast's entry (r, 0) is the vector's entry r; the broadcast's entry (r, c) is the column's entry (r, 0).
-/
import Idealize.ShloMosaic.Lib.ValueLayout
import Idealize.ShloMosaic.PureOps.Ideal.Laws

namespace Keepdims

open Idealize.ShloMosaic Idealize.ShloMosaic.ValueIdx

variable {α : Type}

/-- An [a] array cast to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column's entry at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals the sum of an [a, b] array over its second axis, read at row r, is the sum over the columns
    k of the entry (r, k). -/
theorem rowSum_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ v acc h hφ hacc (ix1 r) = ∑ k : Fin b, v (ix2 r k) := by
  refine (Ideal.multiReduction_add_single v acc h hφ hacc (ix1 r)).trans ?_
  show ∑ k : Fin b, v (h.lift (ix1 r) k) = ∑ k : Fin b, v (ix2 r k)
  refine Finset.sum_congr rfl fun k _ => congrArg v (funext fun d => Fin.ext ?_)
  match d with
  | ⟨0, _⟩ => rfl
  | ⟨1, _⟩ => rfl

/-- The kept-axis row sum: the sum over the second axis cast to a column reads, at (r, 0), the sum over the columns k
    of the entry (r, k). -/
theorem rowSumKeep_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (r : Fin a) (u : Fin 1) :
    shapeCast ⟨2, ![a, 1]⟩ (multiReduction .add [1] ⟨1, ![a]⟩ v acc h hφ hacc) hc (ix2 r u) = ∑ k : Fin b, v (ix2 r k) :=
  (shapeCast_a_a1_apply _ hc r u).trans (rowSum_apply v acc h hφ hacc r)

end Keepdims
-- ==== Proof.Stage1.lean ====
/-
  The second launch: attention of one head. Each grid point (b, h, t) takes 1024 query rows of head (b, h) and all
  2048 key and value rows of that head; it forms the scores q_r . k_j scaled by 1/32, subtracts each row's maximum,
  exponentiates, and stores the weighted sum of the value rows divided by the row's total weight.
  This file reads what one point stores, entry by entry.
-/
import proofs.«158943_j3393024164286_2_alg».proof.Proof.Gen.KernelIdeal.Frame
import proofs.«158943_j3393024164286_2_alg».proof.Proof.Spec
import proofs.«158943_j3393024164286_2_alg».proof.Proof.LibPlainDot
import proofs.«158943_j3393024164286_2_alg».proof.Proof.LibDotRows
import proofs.«158943_j3393024164286_2_alg».proof.Proof.LibRowMax
import proofs.«158943_j3393024164286_2_alg».proof.Proof.LibKeepdims
import Idealize.ShloMosaic.Lib.ValueLayout
import Idealize.ShloMosaic.Lib.Pipeline.Value
import Idealize.ShloMosaic.PureOps.Ideal.Laws

set_option maxRecDepth 16384

noncomputable section

namespace Cert.KernelIdeal.Stage1

open Cert.KernelIdeal Cert.KernelIdeal.Gen
open Idealize.ShloMosaic Idealize.ShloMosaic.ValueIdx

/-- The scale's word (1/32) and the maximum's start word (minus infinity), as extended reals. -/
abbrev cw : EReal := Ideal.ofBits .f32 0x3D000000#32
abbrev botw : EReal := Ideal.ofBits .f32 0xFF800000#32

/-- A [1, 1, 1024, 64] block read as a [1024, 64] matrix. -/
theorem q_apply (x0 : Vec Ideal S1x1x1024x64 .bf16) (r : Fin 1024) (e : Fin 64) :
    shapeCast S1024x64 x0 shapeCasts_S1x1x1024x64_S1024x64 (ix2 r e) = x0 (ix4 (0 : Fin 1) (0 : Fin 1) r e) :=
  shapeCast_apply _ _ _ _ (by
    rw [Shape.rowMajor_val_four, Shape.rowMajor_val_two]
    show ((0 * 1 + 0) * 1024 + r.val) * 64 + e.val = r.val * 64 + e.val
    omega)

/-- A [1, 1, 2048, 64] block read as a [2048, 64] matrix. -/
theorem kv_apply (x : Vec Ideal S1x1x2048x64 .bf16) (j : Fin 2048) (e : Fin 64) :
    shapeCast S2048x64 x shapeCasts_S1x1x2048x64_S2048x64 (ix2 j e) = x (ix4 (0 : Fin 1) (0 : Fin 1) j e) :=
  shapeCast_apply _ _ _ _ (by
    rw [Shape.rowMajor_val_four, Shape.rowMajor_val_two]
    show ((0 * 1 + 0) * 2048 + j.val) * 64 + e.val = j.val * 64 + e.val
    omega)

/-- The scaled score of query row r against key row j of the point's head. -/
def sc (x0 : Vec Ideal S1x1x1024x64 .bf16) (x1 : Vec Ideal S1x1x2048x64 .bf16) (r : Fin 1024) (j : Fin 2048) : EReal :=
  (∑ e : Fin 64, (x0 (ix4 (0 : Fin 1) (0 : Fin 1) r e) : EReal) * x1 (ix4 (0 : Fin 1) (0 : Fin 1) j e)) * cw

/-- The matrix of scaled scores as the body computes it. -/
def scoresVec (x0 : Vec Ideal S1x1x1024x64 .bf16) (x1 : Vec Ideal S1x1x2048x64 .bf16) : FVec Ideal S1024x2048 .f32 :=
  mulf (matmul dot_S1024x64_S2048x64_S1024x2048_1_1_0_0_n_n none
      (shapeCast S1024x64 x0 shapeCasts_S1x1x1024x64_S1024x64 : FVec Ideal S1024x64 .bf16)
      (shapeCast S2048x64 x1 shapeCasts_S1x1x2048x64_S2048x64 : FVec Ideal S2048x64 .bf16)
      (constant S1024x2048 .f32 0x00000000#32))
    (broadcast S1024x2048 (Scalar.ofBits (F := Ideal) .f32 0x3D000000#32))

theorem scores_apply (x0 : Vec Ideal S1x1x1024x64 .bf16) (x1 : Vec Ideal S1x1x2048x64 .bf16) (r : Fin 1024) (j : Fin 2048) :
    scoresVec x0 x1 (ix2 r j) = sc x0 x1 r j := by
  unfold scoresVec sc
  refine (mulf_apply _ _ (ix2 r j)).trans ?_
  congr 1
  refine (DotRows.matmul_zero_apply 1024 64 2048 none _ _ (ix2 r j)).trans ?_
  refine Finset.sum_congr rfl fun e _ => ?_
  congr 1
  · exact q_apply x0 r e
  · exact kv_apply x1 j e

/-- A score matrix shifted by its rows' maxima and exponentiated, read at (r, j). -/
theorem softmax_weight (S : FVec Ideal S1024x2048 .f32) (r : Fin 1024) (j : Fin 2048) :
    exp (subf S (broadcastTo S1024x2048 (shapeCast S1024x1
        (multiReduction .maximumf [1] S1024 S 0xFF800000#32 reduces_S1024x2048_S1024 (.inl rfl) rfl)
        shapeCasts_S1024_S1024x1) broadcasts_S1024x1_S1024x2048)) (ix2 r j)
      = Ideal.exp (S (ix2 r j) - (Finset.univ : Finset (Fin 2048)).fold max botw (fun k => S (ix2 r k))) := by
  have hm : broadcastTo S1024x2048 (shapeCast S1024x1
        (multiReduction .maximumf [1] S1024 S 0xFF800000#32 reduces_S1024x2048_S1024 (.inl rfl) rfl)
        shapeCasts_S1024_S1024x1) broadcasts_S1024x1_S1024x2048 (ix2 r j)
      = (Finset.univ : Finset (Fin 2048)).fold max botw (fun k => S (ix2 r k)) :=
    (Keepdims.broadcastTo_a1_ab_apply _ _ r j).trans
      ((Keepdims.shapeCast_a_a1_apply _ _ r (0 : Fin 1)).trans (RowMax.rowMax_apply S _ _ _ _ r))
  exact congrArg (fun m => Ideal.exp (S (ix2 r j) - m)) hm

/-- The unnormalised weight of key row j for query row r. -/
def wt (x0 : Vec Ideal S1x1x1024x64 .bf16) (x1 : Vec Ideal S1x1x2048x64 .bf16) (r : Fin 1024) (j : Fin 2048) : EReal :=
  Ideal.exp (sc x0 x1 r j - (Finset.univ : Finset (Fin 2048)).fold max botw (sc x0 x1 r))

/-- The matrix of weights as the body computes it. -/
def weightsVec (x0 : Vec Ideal S1x1x1024x64 .bf16) (x1 : Vec Ideal S1x1x2048x64 .bf16) : FVec Ideal S1024x2048 .f32 :=
  exp (subf (scoresVec x0 x1) (broadcastTo S1024x2048 (shapeCast S1024x1
        (multiReduction .maximumf [1] S1024 (scoresVec x0 x1) 0xFF800000#32 reduces_S1024x2048_S1024 (.inl rfl) rfl)
        shapeCasts_S1024_S1024x1) broadcasts_S1024x1_S1024x2048))

theorem weights_apply (x0 : Vec Ideal S1x1x1024x64 .bf16) (x1 : Vec Ideal S1x1x2048x64 .bf16) (r : Fin 1024) (j : Fin 2048) :
    weightsVec x0 x1 (ix2 r j) = wt x0 x1 r j := by
  unfold weightsVec wt
  rw [softmax_weight, scores_apply]
  have e : (fun k => scoresVec x0 x1 (ix2 r k)) = sc x0 x1 r := funext fun k => scores_apply x0 x1 r k
  rw [e]

/-- What a point stores: entry (r, d) is the weighted sum of the value rows' lane d over the row's total weight. -/
theorem pay1_apply (x0 : Vec Ideal S1x1x1024x64 .bf16) (x1 x2 : Vec Ideal S1x1x2048x64 .bf16)
    (u v : Fin 1) (r : Fin 1024) (d : Fin 64) :
    (k1_pay1 x0 x1 x2 (ix4 u v r d) : EReal)
      = Ideal.div (∑ j : Fin 2048, wt x0 x1 r j * x2 (ix4 (0 : Fin 1) (0 : Fin 1) j d)) (∑ j : Fin 2048, wt x0 x1 r j) := by
  unfold k1_pay1
  refine (shapeCast_apply _ _ (ix4 u v r d) (ix2 r d) (by
    rw [Shape.rowMajor_val_two, Shape.rowMajor_val_four]
    show r.val * 64 + d.val = ((u.val * 1 + v.val) * 1024 + r.val) * 64 + d.val
    have hu := u.isLt; have hv := v.isLt
    omega)).trans ?_
  refine (truncf_apply (ψ := .bf16) _ bitsLt_bf16_f32 (ix2 r d)).trans ?_
  refine (divf_apply _ _ (ix2 r d)).trans ?_
  congr 1
  · refine (PlainDot.matmul_zero_apply 1024 2048 64 none _ _ (ix2 r d)).trans ?_
    refine Finset.sum_congr rfl fun j _ => ?_
    congr 1
    · refine (truncf_apply (ψ := .bf16) _ bitsLt_bf16_f32 (ix2 r j)).trans ?_
      exact weights_apply x0 x1 r j
    · exact kv_apply x2 j d
  · refine (Keepdims.broadcastTo_a1_ab_apply _ _ r d).trans ?_
    refine (Keepdims.rowSumKeep_apply _ _ _ _ _ _ r (0 : Fin 1)).trans ?_
    exact Finset.sum_congr rfl fun j _ => weights_apply x0 x1 r j

end Cert.KernelIdeal.Stage1

end
-- ==== Proof.Stage1Arr.lean ====
/-
  The second launch, from blocks to the array. Point t = (b, h, q) of the 2 x 16 x 2 grid reads query rows
  1024 q .. 1024 q + 1023 of head (b, h) and all the key and value rows of that head, and writes the same rows of
  head (b, h) of the output. The output's blocks tile it, so it ends as one function of the three inputs: attention
  with one division per entry.
-/
import proofs.«158943_j3393024164286_2_alg».proof.Proof.Stage1

set_option maxRecDepth 16384

noncomputable section

namespace Cert.KernelIdeal.Stage1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz4 : (![0, 0, 0, 0] : Fin 4 → Nat) = fun _ => 0 := funext fun a => by fin_cases a <;> rfl

/-- The printed index maps over the grid: the query window moves with the output window; the key and value windows
    follow its batch and head and stay at the first row block; every block index is in range. -/
theorem idx_facts : ∀ t : Fin cfg1.N,
    win1_0.index t = win1_3.index t
    ∧ win1_1.index t (0 : Fin 4) = win1_3.index t (0 : Fin 4) ∧ win1_1.index t (1 : Fin 4) = win1_3.index t (1 : Fin 4)
    ∧ win1_1.index t (2 : Fin 4) = 0 ∧ win1_1.index t (3 : Fin 4) = 0
    ∧ win1_2.index t = win1_1.index t
    ∧ win1_3.index t (0 : Fin 4) ≤ 1 ∧ win1_3.index t (1 : Fin 4) ≤ 15 ∧ win1_3.index t (2 : Fin 4) ≤ 1
    ∧ win1_3.index t (3 : Fin 4) = 0 :=
  (by decide +kernel : ∀ t : Fin grid1.N, _)

/-- Every (batch, head, row block) is some point's. -/
theorem idx_onto : ∀ (q0 : Fin 2) (q1 : Fin 16) (q2 : Fin 2), ∃ t : Fin cfg1.N, win1_3.index t = ![q0.val, q1.val, q2.val, 0] :=
  (by decide +kernel : ∀ (q0 : Fin 2) (q1 : Fin 16) (q2 : Fin 2), ∃ t : Fin grid1.N, win1_3.index t = ![q0.val, q1.val, q2.val, 0])

/-- What a point stores, against the whole arrays: if its query block reads `Q` at the output index's batch, head and
    row, and its key and value blocks read `K` and `Vv` at that batch and head, the stored entry is the
    attention's entry. Stated over plain blocks and arrays. -/
theorem point_attn (x0 : Vec Ideal S1x1x1024x64 .bf16) (x1 x2 : Vec Ideal S1x1x2048x64 .bf16)
    (Q K Vv : Mha.ArrH) (j : S1x1x1024x64.Idx) (i : S2x16x2048x64.Idx)
    (eq : ∀ e : Fin 64, (x0 (ix4 (0 : Fin 1) (0 : Fin 1) (j 2) e) : EReal) = Q (ix4 (i 0) (i 1) (i 2) e))
    (ek : ∀ (n : Fin 2048) (e : Fin 64), (x1 (ix4 (0 : Fin 1) (0 : Fin 1) n e) : EReal) = K (ix4 (i 0) (i 1) n e))
    (ev : ∀ (n : Fin 2048) (e : Fin 64), (x2 (ix4 (0 : Fin 1) (0 : Fin 1) n e) : EReal) = Vv (ix4 (i 0) (i 1) n e))
    (h3 : (i 3).val = (j 3).val) :
    (k1_pay1 x0 x1 x2 j : EReal) = Mha.attnK Q K Vv cw botw i := by
  obtain ⟨u, v, r, d, rfl⟩ : ∃ (u v : Fin 1) (r : Fin 1024) (d : Fin 64), j = ix4 u v r d :=
    ⟨j 0, j 1, j 2, j 3, eq_ix4 j⟩
  have eq' : ∀ e : Fin 64, (x0 (ix4 (0 : Fin 1) (0 : Fin 1) r e) : EReal) = Q (ix4 (i 0) (i 1) (i 2) e) := eq
  have c3 : (i 3 : Fin 64) = d := Fin.ext h3
  have hs : ∀ n : Fin 2048, sc x0 x1 r n = Mha.score Q K cw (i 0) (i 1) (i 2) n := fun n => by
    unfold sc Mha.score
    congr 1
    exact Finset.sum_congr rfl fun e _ => by rw [eq' e, ek n e]
  have hw : ∀ n : Fin 2048, wt x0 x1 r n = Mha.wgt Q K cw botw (i 0) (i 1) (i 2) n := fun n => by
    unfold wt Mha.wgt Mha.rowMax
    rw [hs n, show sc x0 x1 r = Mha.score Q K cw (i 0) (i 1) (i 2) from funext hs]
  rw [pay1_apply]
  show _ = Mha.attnKAt Q K Vv cw botw (i 0) (i 1) (i 2) (i 3)
  unfold Mha.attnKAt
  rw [c3]
  congr 1
  · exact Finset.sum_congr rfl fun n _ => by rw [hw n, ev n d]
  · exact Finset.sum_congr rfl fun n _ => hw n

/-- The query block of point t at a row of the output's block: the query array at the output's batch, head and row. -/
theorem query_at (c : Dev nD) (t : Fin cfg1.N) (j : S1x1x1024x64.Idx) (e : Fin 64) :
    (iblk1 V c 0 t (ix4 (0 : Fin 1) (0 : Fin 1) (j 2) e) : EReal)
      = V c main_v2_0 (ix4 ((((cfg1.win 3).blk t).view.emb j) 0) ((((cfg1.win 3).blk t).view.emb j) 1)
          ((((cfg1.win 3).blk t).view.emb j) 2) e) := by
  obtain ⟨a0, a1, a2, a3, a4, a5, a6, a7, a8, a9⟩ := idx_facts t
  show V c main_v2_0 (((cfg1.win 0).blk t).view.emb (ix4 (0 : Fin 1) (0 : Fin 1) (j 2) e)) = _
  refine congrArg (V c main_v2_0) (funext fun a => Fin.ext ?_)
  have hj0 : (j 0).val < 1 := (j 0).isLt
  have hj1 : (j 1).val < 1 := (j 1).isLt
  match a with
  | ⟨0, _⟩ =>
    show win1_0.index t (0 : Fin 4) * 1 + 1 * 0 = win1_3.index t (0 : Fin 4) * 1 + 1 * (j 0).val
    rw [a0]; omega
  | ⟨1, _⟩ =>
    show win1_0.index t (1 : Fin 4) * 1 + 1 * 0 = win1_3.index t (1 : Fin 4) * 1 + 1 * (j 1).val
    rw [a0]; omega
  | ⟨2, _⟩ =>
    show win1_0.index t (2 : Fin 4) * 1024 + 1 * (j 2).val = win1_3.index t (2 : Fin 4) * 1024 + 1 * (j 2).val
    rw [a0]
  | ⟨3, _⟩ =>
    show win1_0.index t (3 : Fin 4) * 64 + 1 * e.val = e.val
    rw [a0]; omega

/-- The key block of point t: all rows of the key array at the output's batch and head. -/
theorem key_at (c : Dev nD) (t : Fin cfg1.N) (j : S1x1x1024x64.Idx) (n : Fin 2048) (e : Fin 64) :
    (iblk1 V c 1 t (ix4 (0 : Fin 1) (0 : Fin 1) n e) : EReal)
      = V c main_v2_1 (ix4 ((((cfg1.win 3).blk t).view.emb j) 0) ((((cfg1.win 3).blk t).view.emb j) 1) n e) := by
  obtain ⟨a0, a1, a2, a3, a4, a5, a6, a7, a8, a9⟩ := idx_facts t
  show V c main_v2_1 (((cfg1.win 1).blk t).view.emb (ix4 (0 : Fin 1) (0 : Fin 1) n e)) = _
  refine congrArg (V c main_v2_1) (funext fun a => Fin.ext ?_)
  have hj0 : (j 0).val < 1 := (j 0).isLt
  have hj1 : (j 1).val < 1 := (j 1).isLt
  match a with
  | ⟨0, _⟩ =>
    show win1_1.index t (0 : Fin 4) * 1 + 1 * 0 = win1_3.index t (0 : Fin 4) * 1 + 1 * (j 0).val
    omega
  | ⟨1, _⟩ =>
    show win1_1.index t (1 : Fin 4) * 1 + 1 * 0 = win1_3.index t (1 : Fin 4) * 1 + 1 * (j 1).val
    omega
  | ⟨2, _⟩ =>
    show win1_1.index t (2 : Fin 4) * 2048 + 1 * n.val = n.val
    omega
  | ⟨3, _⟩ =>
    show win1_1.index t (3 : Fin 4) * 64 + 1 * e.val = e.val
    omega

/-- The value block of point t: all rows of the value array at the output's batch and head. -/
theorem value_at (c : Dev nD) (t : Fin cfg1.N) (j : S1x1x1024x64.Idx) (n : Fin 2048) (e : Fin 64) :
    (iblk1 V c 2 t (ix4 (0 : Fin 1) (0 : Fin 1) n e) : EReal)
      = V c main_v2_2 (ix4 ((((cfg1.win 3).blk t).view.emb j) 0) ((((cfg1.win 3).blk t).view.emb j) 1) n e) := by
  obtain ⟨a0, a1, a2, a3, a4, a5, a6, a7, a8, a9⟩ := idx_facts t
  show V c main_v2_2 (((cfg1.win 2).blk t).view.emb (ix4 (0 : Fin 1) (0 : Fin 1) n e)) = _
  refine congrArg (V c main_v2_2) (funext fun a => Fin.ext ?_)
  have hj0 : (j 0).val < 1 := (j 0).isLt
  have hj1 : (j 1).val < 1 := (j 1).isLt
  match a with
  | ⟨0, _⟩ =>
    show win1_2.index t (0 : Fin 4) * 1 + 1 * 0 = win1_3.index t (0 : Fin 4) * 1 + 1 * (j 0).val
    rw [a5]; omega
  | ⟨1, _⟩ =>
    show win1_2.index t (1 : Fin 4) * 1 + 1 * 0 = win1_3.index t (1 : Fin 4) * 1 + 1 * (j 1).val
    rw [a5]; omega
  | ⟨2, _⟩ =>
    show win1_2.index t (2 : Fin 4) * 2048 + 1 * n.val = n.val
    rw [a5]; omega
  | ⟨3, _⟩ =>
    show win1_2.index t (3 : Fin 4) * 64 + 1 * e.val = e.val
    rw [a5]; omega

/-- WHAT POINT t WRITES BACK is block t of the attention of the launch's three inputs. -/
theorem flushed3_eq (c : Dev nD) (t : Fin cfg1.N) :
    (dat1 V c).flushed 3 t = ((cfg1.win 3).blk t).view.read (Elt Ideal)
      (Mha.attnK (V c main_v2_0) (V c main_v2_1) (V c main_v2_2) cw botw) := by
  show (cfg1.win 3).cut (grid1.coords t) ((dat1 V c).after 3 t) = _
  rw [after1_3]
  unfold out1_3
  rw [View.canon_unit_zero hz4]
  simp only [View.ld_unit_zero (S := S1x1x1024x64) hz4, View.ld_unit_zero (S := S1x1x2048x64) hz4]
  obtain ⟨a0, a1, a2, a3, a4, a5, a6, a7, a8, a9⟩ := idx_facts t
  funext j
  show (k1_pay1 (iblk1 V c 0 t) (iblk1 V c 1 t) (iblk1 V c 2 t) j : EReal)
    = Mha.attnK (V c main_v2_0) (V c main_v2_1) (V c main_v2_2) cw botw (((cfg1.win 3).blk t).view.emb j)
  refine point_attn _ _ _ _ _ _ j _ (query_at V c t j) (key_at V c t j) (value_at V c t j) ?_
  show win1_3.index t (3 : Fin 4) * 64 + 1 * (j 3).val = (j 3).val
  omega

/-- An index of the array is in point t's block iff each coordinate is in the block's range on its axis. -/
theorem mem_blk3 (t : Fin cfg1.N) (i : S2x16x2048x64.Idx) :
    i ∈ ((cfg1.win 3).blk t).view.set ↔ ∀ a : Fin 4, win1_3.index t a * S1x1x1024x64.size a ≤ (i a).val
      ∧ (i a).val < win1_3.index t a * S1x1x1024x64.size a + S1x1x1024x64.size a := by
  show i ∈ ((View.whole main_v3).slice (win1_3.rect t)).set ↔ _
  rw [View.set_slice_whole, Rect.mem_set_unit]
  exact Iff.rfl

/-- Every index of the array is in the block of the point of its batch, head and row block. -/
theorem cover3 (i : S2x16x2048x64.Idx) :
    ∃ t : Fin cfg1.N, (cfg1.win 3).flush t = true ∧ i ∈ ((cfg1.win 3).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto ⟨(i 0).val, hi0⟩ ⟨(i 1).val, hi1⟩ ⟨(i 2).val / 1024, by omega⟩
  have q0 : win1_3.index t (0 : Fin 4) = (i 0).val := congrFun ht 0
  have q1 : win1_3.index t (1 : Fin 4) = (i 1).val := congrFun ht 1
  have q2 : win1_3.index t (2 : Fin 4) = (i 2).val / 1024 := congrFun ht 2
  have q3 : win1_3.index t (3 : Fin 4) = 0 := congrFun ht 3
  refine ⟨t, flush1_3 t, ?_⟩
  rw [mem_blk3]
  intro a
  match a with
  | ⟨0, _⟩ =>
    show win1_3.index t (0 : Fin 4) * 1 ≤ (i 0).val ∧ (i 0).val < win1_3.index t (0 : Fin 4) * 1 + 1
    omega
  | ⟨1, _⟩ =>
    show win1_3.index t (1 : Fin 4) * 1 ≤ (i 1).val ∧ (i 1).val < win1_3.index t (1 : Fin 4) * 1 + 1
    omega
  | ⟨2, _⟩ =>
    show win1_3.index t (2 : Fin 4) * 1024 ≤ (i 2).val ∧ (i 2).val < win1_3.index t (2 : Fin 4) * 1024 + 1024
    omega
  | ⟨3, _⟩ =>
    show win1_3.index t (3 : Fin 4) * 64 ≤ (i 3).val ∧ (i 3).val < win1_3.index t (3 : Fin 4) * 64 + 64
    omega

/-- THE ARRAY after the launch: the attention of the launch's three inputs. -/
theorem final3 (c : Dev nD) :
    (dat1 V c).arrAt 3 cfg1.N = Mha.attnK (V c main_v2_0) (V c main_v2_1) (V c main_v2_2) cw botw :=
  (dat1 V c).arrAt_eq_of_cover 3 _ (fun t _ => flushed3_eq V c t) cover3

end Cert.KernelIdeal.Stage1

end
-- ==== Proof.Stage2.lean ====
/-
  The third launch: the output projection. Each grid point (b, t) takes 1024 rows of all sixteen heads of batch b,
  the whole [1024, 1024] matrix and the bias row; head after head it multiplies the head's [1024, 64] rows with the
  head's 64 rows of the matrix and adds the product onto a running total started from zero, then adds the bias.
  This file reads what one point stores, entry by entry.
-/
import proofs.«158943_j3393024164286_2_alg».proof.Proof.Gen.KernelIdeal.Frame
import proofs.«158943_j3393024164286_2_alg».proof.Proof.Spec
import proofs.«158943_j3393024164286_2_alg».proof.Proof.LibPlainDot
import Idealize.ShloMosaic.Lib.ValueLayout
import Idealize.ShloMosaic.Lib.Pipeline.Value
import Idealize.ShloMosaic.PureOps.Ideal.Laws

set_option maxRecDepth 16384

noncomputable section

namespace Cert.KernelIdeal.Stage2

open Cert.KernelIdeal Cert.KernelIdeal.Gen
open Idealize.ShloMosaic Idealize.ShloMosaic.ValueIdx

/-- The running total's start word (zero), as an extended real. -/
abbrev zw : EReal := Ideal.ofBits .f32 0x00000000#32

/-- One head's product at (r, e): head h's rows cut out of the [16, 1024, 64] block (offset o = h on the head axis)
    against rows 64 h .. 64 h + 63 of the matrix (offset oW = 64 h), into the zero constant: the sum over the head's
    64 lanes. -/
theorem head_apply (A : FVec Ideal S16x1024x64 .bf16) (W : FVec Ideal S1024x1024 .bf16) (o oW : Nat) (h : Fin 16)
    (ho : o = h.val) (hoW : oW = h.val * 64)
    (hsA : S16x1024x64.Slices ![o, 0, 0] S1x1024x64) (hsW : S1024x1024.Slices ![oW, 0] S64x1024)
    (r e : Fin 1024) :
    matmul dot_S1024x64_S64x1024_S1024x1024_1_0_0_1_n_n none
        (shapeCast S1024x64 (extractStridedSlice S1x1024x64 ![o, 0, 0] A hsA) shapeCasts_S1x1024x64_S1024x64 : FVec Ideal S1024x64 .bf16)
        (extractStridedSlice S64x1024 ![oW, 0] W hsW : FVec Ideal S64x1024 .bf16)
        (constant S1024x1024 .f32 0x00000000#32) (ix2 r e)
      = ∑ d : Fin 64, (A (ix3 h r d) : EReal) * W (ix2 (Mha.feat h d) e) := by
  refine (PlainDot.matmul_zero_apply 1024 64 1024 none _ _ (ix2 r e)).trans ?_
  refine Finset.sum_congr rfl fun d _ => ?_
  congr 1
  · refine (shapeCast_1ab_ab_apply _ _ r d).trans ?_
    refine extractStridedSlice_apply _ A hsA _ (ix3 h r d) fun a => ?_
    match a with
    | ⟨0, _⟩ => show h.val = o + 0; omega
    | ⟨1, _⟩ => show r.val = 0 + r.val; omega
    | ⟨2, _⟩ => show d.val = 0 + d.val; omega
  · exact slice2_axis0_apply oW W hsW d e (Mha.feat h d) (by show h.val * 64 + d.val = oW + d.val; omega)

/-- Head h's share of entry (r, e), from the point's blocks. -/
def term (x0 : Vec Ideal S1x16x1024x64 .bf16) (x1 : Vec Ideal S1024x1024 .bf16) (r e : Fin 1024) (h : Fin 16) : EReal :=
  ∑ d : Fin 64, (x0 (ix4 (0 : Fin 1) h r d) : EReal) * x1 (ix2 (Mha.feat h d) e)

/-- The same with the head a natural number. -/
def termN (x0 : Vec Ideal S1x16x1024x64 .bf16) (x1 : Vec Ideal S1024x1024 .bf16) (r e : Fin 1024) (h : ℕ) : EReal :=
  if hh : h < 16 then term x0 x1 r e ⟨h, hh⟩ else 0

theorem head_term (x0 : Vec Ideal S1x16x1024x64 .bf16) (x1 : Vec Ideal S1024x1024 .bf16) (o oW : Nat) (h : Fin 16)
    (ho : o = h.val) (hoW : oW = h.val * 64)
    (hsA : S16x1024x64.Slices ![o, 0, 0] S1x1024x64) (hsW : S1024x1024.Slices ![oW, 0] S64x1024)
    (r e : Fin 1024) :
    matmul dot_S1024x64_S64x1024_S1024x1024_1_0_0_1_n_n none
        (shapeCast S1024x64 (extractStridedSlice S1x1024x64 ![o, 0, 0] (k2_pay2 x0) hsA) shapeCasts_S1x1024x64_S1024x64 : FVec Ideal S1024x64 .bf16)
        (extractStridedSlice S64x1024 ![oW, 0] (k2_pay3 x1) hsW : FVec Ideal S64x1024 .bf16)
        (constant S1024x1024 .f32 0x00000000#32) (ix2 r e)
      = term x0 x1 r e h := by
  refine (head_apply (k2_pay2 x0) (k2_pay3 x1) o oW h ho hoW hsA hsW r e).trans ?_
  unfold term
  refine Finset.sum_congr rfl fun d _ => ?_
  congr 1
  · unfold k2_pay2
    exact shapeCast_1abc_abc_apply x0 _ h r d
  · unfold k2_pay3
    exact congrFun (shapeCast_self x1 _) _

/-- What a point stores: entry (r, e) is the sixteen heads' shares added in order onto zero, plus the bias. -/
theorem pay_apply (x0 : Vec Ideal S1x16x1024x64 .bf16) (x1 : Vec Ideal S1024x1024 .bf16) (x2 : Vec Ideal S1x1024 .f32)
    (u : Fin 1) (r e : Fin 1024) :
    (k2_pay1 (k2_pay7 (k2_pay2 x0) (k2_pay3 x1) (k2_pay4 x0 x1) (k2_pay5 x0) (k2_pay6 x1)
        (constant S1024x1024 .f32 0x00000000#32) x2) (ix3 u r e) : EReal)
      = Mha.accHeads (termN x0 x1 r e) zw 16 + x2 (ix2 (0 : Fin 1) e) := by
  unfold k2_pay1
  refine (shapeCast_ab_1ab_apply _ _ u r e).trans ?_
  unfold k2_pay7 k2_pay4 k2_pay5 k2_pay6
  simp only [addf_apply]
  have H0 := head_term x0 x1 0 0 (0 : Fin 16) rfl rfl slices_S16x1024x64_o0_0_0_S1x1024x64 slices_S1024x1024_o0_0_S64x1024 r e
  have H1 := head_term x0 x1 1 64 (1 : Fin 16) rfl rfl slices_S16x1024x64_o1_0_0_S1x1024x64 slices_S1024x1024_o64_0_S64x1024 r e
  have H2 := head_term x0 x1 2 128 (2 : Fin 16) rfl rfl slices_S16x1024x64_o2_0_0_S1x1024x64 slices_S1024x1024_o128_0_S64x1024 r e
  have H3 := head_term x0 x1 3 192 (3 : Fin 16) rfl rfl slices_S16x1024x64_o3_0_0_S1x1024x64 slices_S1024x1024_o192_0_S64x1024 r e
  have H4 := head_term x0 x1 4 256 (4 : Fin 16) rfl rfl slices_S16x1024x64_o4_0_0_S1x1024x64 slices_S1024x1024_o256_0_S64x1024 r e
  have H5 := head_term x0 x1 5 320 (5 : Fin 16) rfl rfl slices_S16x1024x64_o5_0_0_S1x1024x64 slices_S1024x1024_o320_0_S64x1024 r e
  have H6 := head_term x0 x1 6 384 (6 : Fin 16) rfl rfl slices_S16x1024x64_o6_0_0_S1x1024x64 slices_S1024x1024_o384_0_S64x1024 r e
  have H7 := head_term x0 x1 7 448 (7 : Fin 16) rfl rfl slices_S16x1024x64_o7_0_0_S1x1024x64 slices_S1024x1024_o448_0_S64x1024 r e
  have H8 := head_term x0 x1 8 512 (8 : Fin 16) rfl rfl slices_S16x1024x64_o8_0_0_S1x1024x64 slices_S1024x1024_o512_0_S64x1024 r e
  have H9 := head_term x0 x1 9 576 (9 : Fin 16) rfl rfl slices_S16x1024x64_o9_0_0_S1x1024x64 slices_S1024x1024_o576_0_S64x1024 r e
  have H10 := head_term x0 x1 10 640 (10 : Fin 16) rfl rfl slices_S16x1024x64_o10_0_0_S1x1024x64 slices_S1024x1024_o640_0_S64x1024 r e
  have H11 := head_term x0 x1 11 704 (11 : Fin 16) rfl rfl slices_S16x1024x64_o11_0_0_S1x1024x64 slices_S1024x1024_o704_0_S64x1024 r e
  have H12 := head_term x0 x1 12 768 (12 : Fin 16) rfl rfl slices_S16x1024x64_o12_0_0_S1x1024x64 slices_S1024x1024_o768_0_S64x1024 r e
  have H13 := head_term x0 x1 13 832 (13 : Fin 16) rfl rfl slices_S16x1024x64_o13_0_0_S1x1024x64 slices_S1024x1024_o832_0_S64x1024 r e
  have H14 := head_term x0 x1 14 896 (14 : Fin 16) rfl rfl slices_S16x1024x64_o14_0_0_S1x1024x64 slices_S1024x1024_o896_0_S64x1024 r e
  have H15 := head_term x0 x1 15 960 (15 : Fin 16) rfl rfl slices_S16x1024x64_o15_0_0_S1x1024x64 slices_S1024x1024_o960_0_S64x1024 r e
  have HB : broadcastTo S1024x1024 (shapeCast S1x1024 x2 shapeCasts_S1x1024_S1x1024) broadcasts_S1x1024_S1024x1024 (ix2 r e)
      = (x2 (ix2 (0 : Fin 1) e) : EReal) :=
    (broadcastTo_1b_ab_apply _ _ r e).trans (congrFun (shapeCast_self x2 _) _)
  rw [H0, H1, H2, H3, H4, H5, H6, H7, H8, H9, H10, H11, H12, H13, H14, H15, HB]
  rfl

end Cert.KernelIdeal.Stage2

end
-- ==== Proof.Stage2Arr.lean ====
/-
  The third launch, from blocks to the array. Point t = (b, n) of the 2 x 2 grid reads rows 1024 n .. 1024 n + 1023
  of all sixteen heads of batch b, the whole matrix and the bias row, and writes the same rows of batch b of the
  [2, 2048, 1024] result. The result's blocks tile it, so it ends as one function of the launch's three inputs:
  the output projection added up head by head.
-/
import proofs.«158943_j3393024164286_2_alg».proof.Proof.Stage2

set_option maxRecDepth 16384

noncomputable section

namespace Cert.KernelIdeal.Stage2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- A [1, 1024] row read as a vector of 1024 entries. -/
def rowOf (v : S1x1024.Idx → EReal) : Mha.ArrB := fun i => v (ix2 (0 : Fin 1) (i 0))

/-- The printed index maps over the grid: the heads' window moves with the result's window (batch and row block),
    the matrix and the bias row stay, and every block index is in range. -/
theorem idx_facts : ∀ t : Fin cfg2.N,
    win2_0.index t (0 : Fin 4) = win2_3.index t (0 : Fin 3) ∧ win2_0.index t (1 : Fin 4) = 0
    ∧ win2_0.index t (2 : Fin 4) = win2_3.index t (1 : Fin 3) ∧ win2_0.index t (3 : Fin 4) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 3) ≤ 1 ∧ win2_3.index t (1 : Fin 3) ≤ 1 ∧ win2_3.index t (2 : Fin 3) = 0 :=
  (by decide +kernel : ∀ t : Fin grid2.N, _)

/-- Every (batch, row block) is some point's. -/
theorem idx_onto : ∀ (q0 : Fin 2) (q1 : Fin 2), ∃ t : Fin cfg2.N, win2_3.index t = ![q0.val, q1.val, 0] :=
  (by decide +kernel : ∀ (q0 : Fin 2) (q1 : Fin 2), ∃ t : Fin grid2.N, win2_3.index t = ![q0.val, q1.val, 0])

/-- What a point stores, against the whole arrays: if its heads' block reads `A` at the result index's batch and
    row, its matrix block is `Wo` and its bias block is the row `Bv`, the stored entry is the head-by-head output
    projection's entry. Stated over plain blocks and arrays. -/
theorem point_out (x0 : Vec Ideal S1x16x1024x64 .bf16) (x1 : Vec Ideal S1024x1024 .bf16) (x2 : Vec Ideal S1x1024 .f32)
    (A : Mha.ArrH) (Wo : Mha.ArrWo) (Bv : Mha.ArrB) (j : S1x1024x1024.Idx) (i : S2x2048x1024.Idx)
    (ea : ∀ (h : Fin 16) (d : Fin 64), (x0 (ix4 (0 : Fin 1) h (j 1) d) : EReal) = A (ix4 (i 0) h (i 1) d))
    (ew : ∀ y : S1024x1024.Idx, (x1 y : EReal) = Wo y)
    (eb : ∀ e : Fin 1024, (x2 (ix2 (0 : Fin 1) e) : EReal) = Bv (ix1 e))
    (h2 : (i 2).val = (j 2).val) :
    (k2_pay1 (k2_pay7 (k2_pay2 x0) (k2_pay3 x1) (k2_pay4 x0 x1) (k2_pay5 x0) (k2_pay6 x1)
        (constant S1024x1024 .f32 0x00000000#32) x2) j : EReal)
      = Mha.outK A Wo Bv zw i := by
  obtain ⟨u, r, e, rfl⟩ : ∃ (u : Fin 1) (r e : Fin 1024), j = ix3 u r e := ⟨j 0, j 1, j 2, eq_ix3 j⟩
  have ea' : ∀ (h : Fin 16) (d : Fin 64), (x0 (ix4 (0 : Fin 1) h r d) : EReal) = A (ix4 (i 0) h (i 1) d) := ea
  have c2 : (i 2 : Fin 1024) = e := Fin.ext h2
  rw [pay_apply]
  show _ = Mha.outKAt A Wo Bv zw (i 0) (i 1) (i 2)
  unfold Mha.outKAt
  rw [c2, eb e]
  congr 1
  have ht : termN x0 x1 r e = Mha.headTermN A Wo (i 0) (i 1) e := funext fun h => by
    unfold termN Mha.headTermN
    by_cases hh : h < 16
    · rw [dif_pos hh, dif_pos hh]
      unfold term Mha.headTerm
      exact Finset.sum_congr rfl fun d _ => by rw [ea' ⟨h, hh⟩ d, ew]
    · rw [dif_neg hh, dif_neg hh]
  rw [ht]

/-- The heads' block of point t at a row of the result's block: the array at the result's batch and row. -/
theorem heads_at (c : Dev nD) (t : Fin cfg2.N) (j : S1x1024x1024.Idx) (h : Fin 16) (d : Fin 64) :
    (iblk2 V c 0 t (ix4 (0 : Fin 1) h (j 1) d) : EReal)
      = V c main_v3 (ix4 ((((cfg2.win 3).blk t).view.emb j) 0) h ((((cfg2.win 3).blk t).view.emb j) 1) d) := by
  obtain ⟨a0, a1, a2, a3, a4, a5, a6, a7, a8, a9, a10⟩ := idx_facts t
  show V c main_v3 (((cfg2.win 0).blk t).view.emb (ix4 (0 : Fin 1) h (j 1) d)) = _
  refine congrArg (V c main_v3) (funext fun a => Fin.ext ?_)
  have hj0 : (j 0).val < 1 := (j 0).isLt
  match a with
  | ⟨0, _⟩ =>
    show win2_0.index t (0 : Fin 4) * 1 + 1 * 0 = win2_3.index t (0 : Fin 3) * 1 + 1 * (j 0).val
    omega
  | ⟨1, _⟩ =>
    show win2_0.index t (1 : Fin 4) * 16 + 1 * h.val = h.val
    omega
  | ⟨2, _⟩ =>
    show win2_0.index t (2 : Fin 4) * 1024 + 1 * (j 1).val = win2_3.index t (1 : Fin 3) * 1024 + 1 * (j 1).val
    omega
  | ⟨3, _⟩ =>
    show win2_0.index t (3 : Fin 4) * 64 + 1 * d.val = d.val
    omega

/-- The matrix block of every point is the whole matrix. -/
theorem matrix_at (c : Dev nD) (t : Fin cfg2.N) (y : S1024x1024.Idx) :
    (iblk2 V c 1 t y : EReal) = V c main_v1 y := by
  obtain ⟨a0, a1, a2, a3, a4, a5, a6, a7, a8, a9, a10⟩ := idx_facts t
  show V c main_v1 (((cfg2.win 1).blk t).view.emb y) = _
  refine congrArg (V c main_v1) (funext fun a => Fin.ext ?_)
  match a with
  | ⟨0, _⟩ => show win2_1.index t (0 : Fin 2) * 1024 + 1 * (y 0).val = (y 0).val; omega
  | ⟨1, _⟩ => show win2_1.index t (1 : Fin 2) * 1024 + 1 * (y 1).val = (y 1).val; omega

/-- The bias block of every point is the whole bias row. -/
theorem bias_at (c : Dev nD) (t : Fin cfg2.N) (e : Fin 1024) :
    (iblk2 V c 2 t (ix2 (0 : Fin 1) e) : EReal) = rowOf (V c main_v4) (ix1 e) := by
  obtain ⟨a0, a1, a2, a3, a4, a5, a6, a7, a8, a9, a10⟩ := idx_facts t
  show V c main_v4 (((cfg2.win 2).blk t).view.emb (ix2 (0 : Fin 1) e)) = V c main_v4 (ix2 (0 : Fin 1) e)
  refine congrArg (V c main_v4) (funext fun a => Fin.ext ?_)
  match a with
  | ⟨0, _⟩ => show win2_2.index t (0 : Fin 2) * 1 + 1 * 0 = 0; omega
  | ⟨1, _⟩ => show win2_2.index t (1 : Fin 2) * 1024 + 1 * e.val = e.val; omega

/-- WHAT POINT t WRITES BACK is block t of the head-by-head output projection of the launch's three inputs. -/
theorem flushed3_eq (c : Dev nD) (t : Fin cfg2.N) :
    (dat2 V c).flushed 3 t = ((cfg2.win 3).blk t).view.read (Elt Ideal)
      (Mha.outK (V c main_v3) (V c main_v1) (rowOf (V c main_v4)) zw) := by
  show (cfg2.win 3).cut (grid2.coords t) ((dat2 V c).after 3 t) = _
  rw [after2_3]
  unfold out2_3
  rw [View.canon_unit_zero hz3]
  simp only [View.ld_unit_zero (S := S1x16x1024x64) hz4, View.ld_unit_zero (S := S1024x1024) hz2,
    View.ld_unit_zero (S := S1x1024) hz2]
  obtain ⟨a0, a1, a2, a3, a4, a5, a6, a7, a8, a9, a10⟩ := idx_facts t
  funext j
  show (k2_pay1 (k2_pay7 (k2_pay2 (iblk2 V c 0 t)) (k2_pay3 (iblk2 V c 1 t)) (k2_pay4 (iblk2 V c 0 t) (iblk2 V c 1 t))
        (k2_pay5 (iblk2 V c 0 t)) (k2_pay6 (iblk2 V c 1 t)) (constant S1024x1024 .f32 0x00000000#32) (iblk2 V c 2 t)) j : EReal)
    = Mha.outK (V c main_v3) (V c main_v1) (rowOf (V c main_v4)) zw (((cfg2.win 3).blk t).view.emb j)
  refine point_out _ _ _ _ _ _ j _ (heads_at V c t j) (matrix_at V c t) (bias_at V c t) ?_
  show win2_3.index t (2 : Fin 3) * 1024 + 1 * (j 2).val = (j 2).val
  omega

/-- An index of the array is in point t's block iff each coordinate is in the block's range on its axis. -/
theorem mem_blk3 (t : Fin cfg2.N) (i : S2x2048x1024.Idx) :
    i ∈ ((cfg2.win 3).blk t).view.set ↔ ∀ a : Fin 3, win2_3.index t a * S1x1024x1024.size a ≤ (i a).val
      ∧ (i a).val < win2_3.index t a * S1x1024x1024.size a + S1x1024x1024.size a := by
  show i ∈ ((View.whole main_v5).slice (win2_3.rect t)).set ↔ _
  rw [View.set_slice_whole, Rect.mem_set_unit]
  exact Iff.rfl

/-- Every index of the array is in the block of the point of its batch and row block. -/
theorem cover3 (i : S2x2048x1024.Idx) :
    ∃ t : Fin cfg2.N, (cfg2.win 3).flush t = true ∧ i ∈ ((cfg2.win 3).blk t).view.set := by
  have hi0 : (i 0).val < 2 := (i 0).isLt
  have hi1 : (i 1).val < 2048 := (i 1).isLt
  have hi2 : (i 2).val < 1024 := (i 2).isLt
  obtain ⟨t, ht⟩ := idx_onto ⟨(i 0).val, hi0⟩ ⟨(i 1).val / 1024, by omega⟩
  have q0 : win2_3.index t (0 : Fin 3) = (i 0).val := congrFun ht 0
  have q1 : win2_3.index t (1 : Fin 3) = (i 1).val / 1024 := congrFun ht 1
  have q2 : win2_3.index t (2 : Fin 3) = 0 := congrFun ht 2
  refine ⟨t, flush2_3 t, ?_⟩
  rw [mem_blk3]
  intro a
  match a with
  | ⟨0, _⟩ =>
    show win2_3.index t (0 : Fin 3) * 1 ≤ (i 0).val ∧ (i 0).val < win2_3.index t (0 : Fin 3) * 1 + 1
    omega
  | ⟨1, _⟩ =>
    show win2_3.index t (1 : Fin 3) * 1024 ≤ (i 1).val ∧ (i 1).val < win2_3.index t (1 : Fin 3) * 1024 + 1024
    omega
  | ⟨2, _⟩ =>
    show win2_3.index t (2 : Fin 3) * 1024 ≤ (i 2).val ∧ (i 2).val < win2_3.index t (2 : Fin 3) * 1024 + 1024
    omega

/-- THE ARRAY after the launch: the head-by-head output projection of the launch's three inputs. -/
theorem final3 (c : Dev nD) :
    (dat2 V c).arrAt 3 cfg2.N = Mha.outK (V c main_v3) (V c main_v1) (rowOf (V c main_v4)) zw :=
  (dat2 V c).arrAt_eq_of_cover 3 _ (fun t _ => flushed3_eq V c t) cover3

end Cert.KernelIdeal.Stage2

end
-- ==== Proof.KValue.lean ====
/-
  The three launches chained. Between the launches the arrays are carried unchanged; before the first launch the two
  matrices are converted to a narrower float format (the identity on extended reals), before the third the bias vector
  is reshaped to a row. So the result array ends as the head-by-head output projection of the one-division attention
  of the three parts of the packed projection of the arguments.
-/
import proofs.«158943_j3393024164286_2_alg».proof.Proof.KRun
import proofs.«158943_j3393024164286_2_alg».proof.Proof.Stage0Arr
import proofs.«158943_j3393024164286_2_alg».proof.Proof.Stage1Arr
import proofs.«158943_j3393024164286_2_alg».proof.Proof.Stage2Arr
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- A buffer neither conversion writes is, after them, as before. -/
theorem keep0 (X : Valuation τ sig (Elt Ideal)) (b : Ref sig .tc) (h0 : main_v0 ≠ b) (h1 : main_v1 ≠ b) :
    StableHlo.after (hostOps0 (F := Ideal)) X (Proc.devRef .tc b) = X (Proc.devRef .tc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0.symm, StableHlo.devRef_ne_of_ne h1.symm⟩))

/-- A buffer the reshape does not write is, after it, as before. -/
theorem keep2 (X : Valuation τ sig (Elt Ideal)) (b : Ref sig .tc) (h4 : main_v4 ≠ b) :
    StableHlo.after (hostOps2 (F := Ideal)) X (Proc.devRef .tc b) = X (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne h4.symm))

/-- The first launch finds the token array as launched. -/
theorem V1_arg0 (c : Dev nD) : V1 m ρ c main_arg0 = m ((c : Thread nD τ).loc main_arg0) :=
  (keep0 (W0 m ρ c) main_arg0 (by decide) (by decide)).trans rfl

/-- The first launch finds the packed matrix converted: the same extended reals. -/
theorem V1_v0 (c : Dev nD) : (V1 m ρ c main_v0 : S1024x3072.Idx → EReal) = m ((c : Thread nD τ).loc main_arg1) := by
  show StableHlo.after (hostOps0 (F := Ideal)) (W0 m ρ c) (Proc.devRef .tc main_v0) = _
  after_results
  rfl

/-- The second launch finds the three parts of the projection of the arguments. -/
theorem V2_part0 (c : Dev nD) : (V2 m ρ c main_v2_0 : S2x16x2048x64.Idx → EReal)
    = Mha.proj (m ((c : Thread nD τ).loc main_arg0)) (m ((c : Thread nD τ).loc main_arg1)) 0 := by
  have h := (W2_arr m ρ c 2).trans (Stage0.final2 (V1 m ρ) c)
  rw [V1_arg0 m ρ c, V1_v0 m ρ c] at h
  exact h

theorem V2_part1 (c : Dev nD) : (V2 m ρ c main_v2_1 : S2x16x2048x64.Idx → EReal)
    = Mha.proj (m ((c : Thread nD τ).loc main_arg0)) (m ((c : Thread nD τ).loc main_arg1)) 1 := by
  have h := (W2_arr m ρ c 3).trans (Stage0.final3 (V1 m ρ) c)
  rw [V1_arg0 m ρ c, V1_v0 m ρ c] at h
  exact h

theorem V2_part2 (c : Dev nD) : (V2 m ρ c main_v2_2 : S2x16x2048x64.Idx → EReal)
    = Mha.proj (m ((c : Thread nD τ).loc main_arg0)) (m ((c : Thread nD τ).loc main_arg1)) 2 := by
  have h := (W2_arr m ρ c 4).trans (Stage0.final4 (V1 m ρ) c)
  rw [V1_arg0 m ρ c, V1_v0 m ρ c] at h
  exact h

/-- The third launch finds the attention of those three parts, -/
theorem V4_attn (c : Dev nD) : (V4 m ρ c main_v3 : S2x16x2048x64.Idx → EReal)
    = Mha.attnK (Mha.proj (m ((c : Thread nD τ).loc main_arg0)) (m ((c : Thread nD τ).loc main_arg1)) 0)
        (Mha.proj (m ((c : Thread nD τ).loc main_arg0)) (m ((c : Thread nD τ).loc main_arg1)) 1)
        (Mha.proj (m ((c : Thread nD τ).loc main_arg0)) (m ((c : Thread nD τ).loc main_arg1)) 2) Stage1.cw Stage1.botw := by
  have h0 : V4 m ρ c main_v3 = W3 m ρ c (Proc.devRef .tc main_v3) := keep2 (W3 m ρ c) main_v3 (by decide)
  have h := h0.trans ((W3_arr m ρ c 3).trans (Stage1.final3 (V2 m ρ) c))
  rw [V2_part0 m ρ c, V2_part1 m ρ c, V2_part2 m ρ c] at h
  exact h

/-- the output matrix converted: the same extended reals, -/
theorem V4_matrix (c : Dev nD) : (V4 m ρ c main_v1 : S1024x1024.Idx → EReal) = m ((c : Thread nD τ).loc main_arg2) := by
  have h0 : V4 m ρ c main_v1 = W3 m ρ c (Proc.devRef .tc main_v1) := keep2 (W3 m ρ c) main_v1 (by decide)
  have h1 : W3 m ρ c (Proc.devRef .tc main_v1) = W2 m ρ c (Proc.devRef .tc main_v1) := W3_of_ne m ρ c main_v1 (by decide)
  have h2 : W2 m ρ c (Proc.devRef .tc main_v1) = W1 m ρ c (Proc.devRef .tc main_v1) := W2_of_ne m ρ c main_v1 (by decide)
  have h3 : (W1 m ρ c (Proc.devRef .tc main_v1) : S1024x1024.Idx → EReal) = m ((c : Thread nD τ).loc main_arg2) := by
    show StableHlo.after (hostOps0 (F := Ideal)) (W0 m ρ c) (Proc.devRef .tc main_v1) = _
    after_results
    rfl
  exact h0.trans (h1.trans (h2.trans h3))

/-- and the bias vector as a row. -/
theorem V4_bias (c : Dev nD) : Stage2.rowOf (V4 m ρ c main_v4) = m ((c : Thread nD τ).loc main_arg3) := by
  have h3 : W3 m ρ c (Proc.devRef .tc main_arg3) = m ((c : Thread nD τ).loc main_arg3) :=
    (W3_of_ne m ρ c main_arg3 (by decide)).trans ((W2_of_ne m ρ c main_arg3 (by decide)).trans
      ((keep0 (W0 m ρ c) main_arg3 (by decide) (by decide)).trans rfl))
  have h : (V4 m ρ c main_v4 : S1x1024.Idx → EReal)
      = shapeCast S1x1024 (W3 m ρ c (Proc.devRef .tc main_arg3)) shapeCasts_S1024_S1x1024 := by
    show StableHlo.after (hostOps2 (F := Ideal)) (W3 m ρ c) (Proc.devRef .tc main_v4) = _
    after_results
    rfl
  funext i
  obtain ⟨q, rfl⟩ : ∃ q : Fin 1024, i = ix1 q := ⟨i 0, eq_ix1 i⟩
  unfold Stage2.rowOf
  rw [h, h3]
  exact shapeCast_a_1a_apply _ _ (0 : Fin 1) q

/-- THE RESULT ARRAY after the run, as one function of the four argument arrays. -/
theorem result_value (c : Dev nD) : (W5 m ρ c (Proc.devRef .tc main_v5) : S2x2048x1024.Idx → EReal)
    = Mha.resultK (m ((c : Thread nD τ).loc main_arg0)) (m ((c : Thread nD τ).loc main_arg1))
        (m ((c : Thread nD τ).loc main_arg2)) (m ((c : Thread nD τ).loc main_arg3)) Stage1.cw Stage1.botw Stage2.zw := by
  have h := (W5_arr m ρ c 3).trans (Stage2.final3 (V4 m ρ) c)
  rw [V4_attn m ρ c, V4_matrix m ρ c, V4_bias m ρ c] at h
  exact h

/-- The run of the tiled program with its result as that function. -/
theorem run : θ_run defs (onTc (τ := τ) (main (F := Ideal))) ⟨m, fun _ => 0, ρ⟩ (fun r => ∀ c : Dev nD,
      r.2.mem ((c.tc : Thread nD τ).loc main_v5)
        = Mha.resultK (m ((c : Thread nD τ).loc main_arg0)) (m ((c : Thread nD τ).loc main_arg1))
            (m ((c : Thread nD τ).loc main_arg2)) (m ((c : Thread nD τ).loc main_arg3)) Stage1.cw Stage1.botw Stage2.zw
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_value m ρ c), (h c).2⟩) (KRun.run_result (F := Ideal) m ρ)

end Cert.KernelIdeal.KValue

end
-- ==== Proof.RefSpec.lean ====
/-
  The plain program read as the specification: its result array, index by index, is `Mha.resultR` of the four
  argument arrays — packed projection, scaled scores, row maximum, exponentials, row totals, every weight divided by
  its row's total, weighted sum of the value rows, heads concatenated along features, output projection plus bias.
-/
import proofs.«158943_j3393024164286_2_alg».proof.Proof.Gen.ReferenceIdeal.Read
import proofs.«158943_j3393024164286_2_alg».proof.Proof.Spec

noncomputable section

namespace Cert.ReferenceIdeal.RefSpec

open Cert.ReferenceIdeal Cert.ReferenceIdeal.Gen Cert.ReferenceIdeal.Read Idealize.ShloMosaic Idealize.ShloMosaic.TcCoe Idealize.SL.Sem
open Idealize.ShloMosaic.ValueIdx

/-! ## The packed projection and its three parts -/

/-- The projection before it is cut into parts: token (b, n) against column c of the packed matrix. -/
theorem v0_at (x0 : Mha.ArrX) (x1 : Mha.ArrWq) (b : Fin 2) (n : Fin 2048) (c : Fin 3072) :
    val_main_v0 (F := Ideal) x0 x1 (ix3 b n c) = ∑ k : Fin 1024, x0 (ix3 b n k) * x1 (ix2 k c) := by
  rw [val_main_v0_apply]
  refine Finset.sum_congr rfl fun k _ => ?_
  have el : lidx_main_v0 (ix3 b n c) k = ix3 b n k :=
    funext fun a => Fin.ext (by match a with | ⟨0, _⟩ => rfl | ⟨1, _⟩ => rfl | ⟨2, _⟩ => rfl)
  have er : ridx_main_v0 (ix3 b n c) k = ix2 k c :=
    funext fun a => Fin.ext (by match a with | ⟨0, _⟩ => rfl | ⟨1, _⟩ => rfl)
  rw [el, er]

/-- Part s of the transposed five-axis array at (s, b, h, n, d) is the projection's column `col s h d` of token (b, n). -/
theorem v2_at (x0 : Mha.ArrX) (x1 : Mha.ArrWq) (s : Fin 3) (b : Fin 2) (h : Fin 16) (n : Fin 2048) (d : Fin 64) :
    val_main_v2 (F := Ideal) x0 x1 (ix5 s b h n d) = Mha.projAt x0 x1 s b h n d := by
  rw [val_main_v2_apply, val_main_v1_apply]
  have e : idx_main_v1 (idx_main_v2 (ix5 s b h n d)) = ix3 b n (Mha.col s h d) :=
    funext fun a => Fin.ext (by
      have hs := s.isLt; have hb := b.isLt; have hh := h.isLt; have hn := n.isLt; have hd := d.isLt
      match a with
      | ⟨0, _⟩ => show ((((b.val * 2048 + n.val) * 3 + s.val) * 16 + h.val) * 64 + d.val) / 6291456 = b.val; omega
      | ⟨1, _⟩ => show ((((b.val * 2048 + n.val) * 3 + s.val) * 16 + h.val) * 64 + d.val) / 3072 % 2048 = n.val; omega
      | ⟨2, _⟩ => show ((((b.val * 2048 + n.val) * 3 + s.val) * 16 + h.val) * 64 + d.val) % 3072 = s.val * 1024 + h.val * 64 + d.val; omega)
  rw [e, v0_at]
  rfl

/-- The query part as a [2, 16, 2048, 64] array. -/
theorem v4_eq (x0 : Mha.ArrX) (x1 : Mha.ArrWq) : val_main_v4 (F := Ideal) x0 x1 = Mha.proj x0 x1 0 := by
  funext i
  obtain ⟨b, h, n, d, rfl⟩ : ∃ (b : Fin 2) (h : Fin 16) (n : Fin 2048) (d : Fin 64), i = ix4 b h n d :=
    ⟨i 0, i 1, i 2, i 3, eq_ix4 i⟩
  rw [val_main_v4_apply, val_main_v3_apply]
  have e : idx_main_v3 (idx_main_v4 (ix4 b h n d)) = ix5 (0 : Fin 3) b h n d :=
    funext fun a => Fin.ext (by
      have hb := b.isLt; have hh := h.isLt; have hn := n.isLt; have hd := d.isLt
      match a with
      | ⟨0, _⟩ => rfl
      | ⟨1, _⟩ => show (((b.val * 16 + h.val) * 2048 + n.val) * 64 + d.val) / 2097152 % 2 = b.val; omega
      | ⟨2, _⟩ => show (((b.val * 16 + h.val) * 2048 + n.val) * 64 + d.val) / 131072 % 16 = h.val; omega
      | ⟨3, _⟩ => show (((b.val * 16 + h.val) * 2048 + n.val) * 64 + d.val) / 64 % 2048 = n.val; omega
      | ⟨4, _⟩ => show (((b.val * 16 + h.val) * 2048 + n.val) * 64 + d.val) % 64 = d.val; omega)
  rw [e, v2_at]
  rfl

/-- The key part as a [2, 16, 2048, 64] array. -/
theorem v6_eq (x0 : Mha.ArrX) (x1 : Mha.ArrWq) : val_main_v6 (F := Ideal) x0 x1 = Mha.proj x0 x1 1 := by
  funext i
  obtain ⟨b, h, n, d, rfl⟩ : ∃ (b : Fin 2) (h : Fin 16) (n : Fin 2048) (d : Fin 64), i = ix4 b h n d :=
    ⟨i 0, i 1, i 2, i 3, eq_ix4 i⟩
  rw [val_main_v6_apply, val_main_v5_apply]
  have e : idx_main_v5 (idx_main_v6 (ix4 b h n d)) = ix5 (1 : Fin 3) b h n d :=
    funext fun a => Fin.ext (by
      have hb := b.isLt; have hh := h.isLt; have hn := n.isLt; have hd := d.isLt
      match a with
      | ⟨0, _⟩ => rfl
      | ⟨1, _⟩ => show (((b.val * 16 + h.val) * 2048 + n.val) * 64 + d.val) / 2097152 % 2 = b.val; omega
      | ⟨2, _⟩ => show (((b.val * 16 + h.val) * 2048 + n.val) * 64 + d.val) / 131072 % 16 = h.val; omega
      | ⟨3, _⟩ => show (((b.val * 16 + h.val) * 2048 + n.val) * 64 + d.val) / 64 % 2048 = n.val; omega
      | ⟨4, _⟩ => show (((b.val * 16 + h.val) * 2048 + n.val) * 64 + d.val) % 64 = d.val; omega)
  rw [e, v2_at]
  rfl

/-- The value part as a [2, 16, 2048, 64] array. -/
theorem v8_eq (x0 : Mha.ArrX) (x1 : Mha.ArrWq) : val_main_v8 (F := Ideal) x0 x1 = Mha.proj x0 x1 2 := by
  funext i
  obtain ⟨b, h, n, d, rfl⟩ : ∃ (b : Fin 2) (h : Fin 16) (n : Fin 2048) (d : Fin 64), i = ix4 b h n d :=
    ⟨i 0, i 1, i 2, i 3, eq_ix4 i⟩
  rw [val_main_v8_apply, val_main_v7_apply]
  have e : idx_main_v7 (idx_main_v8 (ix4 b h n d)) = ix5 (2 : Fin 3) b h n d :=
    funext fun a => Fin.ext (by
      have hb := b.isLt; have hh := h.isLt; have hn := n.isLt; have hd := d.isLt
      match a with
      | ⟨0, _⟩ => rfl
      | ⟨1, _⟩ => show (((b.val * 16 + h.val) * 2048 + n.val) * 64 + d.val) / 2097152 % 2 = b.val; omega
      | ⟨2, _⟩ => show (((b.val * 16 + h.val) * 2048 + n.val) * 64 + d.val) / 131072 % 16 = h.val; omega
      | ⟨3, _⟩ => show (((b.val * 16 + h.val) * 2048 + n.val) * 64 + d.val) / 64 % 2048 = n.val; omega
      | ⟨4, _⟩ => show (((b.val * 16 + h.val) * 2048 + n.val) * 64 + d.val) % 64 = d.val; omega)
  rw [e, v2_at]
  rfl

/-! ## Scores, row maximum, weights -/

/-- The scaled score of query row i against key row j in head (b, h). -/
theorem v11_at (x0 : Mha.ArrX) (x1 : Mha.ArrWq) (b : Fin 2) (h : Fin 16) (i j : Fin 2048) :
    val_main_v11 (F := Ideal) x0 x1 (ix4 b h i j)
      = Mha.score (Mha.proj x0 x1 0) (Mha.proj x0 x1 1) (Ideal.ofBits .f32 0x3D000000#32) b h i j := by
  rw [val_main_v11_apply, val_main_v9_apply, val_main_v10_apply, val_main_cst_apply, v4_eq, v6_eq,
    Ideal.mulf_def, Ideal.ofBits_def]
  unfold Mha.score
  refine congrArg (· * _) (Finset.sum_congr rfl fun k _ => ?_)
  have el : lidx_main_v9 (ix4 b h i j) k = ix4 b h i k :=
    funext fun a => Fin.ext (by match a with | ⟨0, _⟩ => rfl | ⟨1, _⟩ => rfl | ⟨2, _⟩ => rfl | ⟨3, _⟩ => rfl)
  have er : ridx_main_v9 (ix4 b h i j) k = ix4 b h j k :=
    funext fun a => Fin.ext (by match a with | ⟨0, _⟩ => rfl | ⟨1, _⟩ => rfl | ⟨2, _⟩ => rfl | ⟨3, _⟩ => rfl)
  rw [el, er]

/-- A [2, 16, 2048] index with a key row put back on the reduced last axis. -/
theorem lift_ix3 (hr : S2x16x2048x2048.Reduces [3] S2x16x2048) (b : Fin 2) (h : Fin 16) (i : Fin 2048)
    (k : Fin (S2x16x2048x2048.size 3)) : hr.lift (ix3 b h i) k = ix4 b h i (⟨k.val, k.isLt⟩ : Fin 2048) := by
  funext c; apply Fin.ext
  fin_cases c <;> rfl

/-- The maximum over the key rows, folded from the initial value, is the specification's row maximum. -/
theorem v12_at (x0 : Mha.ArrX) (x1 : Mha.ArrWq) (b : Fin 2) (h : Fin 16) (i : Fin 2048) :
    val_main_v12 (F := Ideal) x0 x1 (ix3 b h i)
      = Mha.rowMax (Ideal.ofBits .f32 0xFF800000#32)
          (Mha.score (Mha.proj x0 x1 0) (Mha.proj x0 x1 1) (Ideal.ofBits .f32 0x3D000000#32) b h i) := by
  have hr : S2x16x2048x2048.Reduces [3] S2x16x2048 := by decide
  unfold val_main_v12 Mha.rowMax
  rw [Host.reduce_eq_fold_single FloatOps.maximumf _ _ reducesTo_S2x16x2048x2048_S2x16x2048_d3 hr h_S_]
  have hf : (val_main_v11 (F := Ideal) x0 x1 ∘ hr.lift (ix3 b h i))
      = fun k : Fin 2048 => Mha.score (Mha.proj x0 x1 0) (Mha.proj x0 x1 1) (Ideal.ofBits .f32 0x3D000000#32) b h i k :=
    funext fun k => by
      show val_main_v11 (F := Ideal) x0 x1 (hr.lift (ix3 b h i) k) = _
      rw [lift_ix3, v11_at]
      rfl
  exact congrArg (fun f => Finset.fold max (Ideal.ofBits .f32 0xFF800000#32) f (Finset.univ : Finset (Fin 2048))) hf

/-- The row maximum the later stages use: the larger of the initial value and the fold, which is the fold. -/
theorem v14_at (x0 : Mha.ArrX) (x1 : Mha.ArrWq) (b : Fin 2) (h : Fin 16) (i : Fin 2048) :
    val_main_v14 (F := Ideal) x0 x1 (ix3 b h i)
      = Mha.rowMax (Ideal.ofBits .f32 0xFF800000#32)
          (Mha.score (Mha.proj x0 x1 0) (Mha.proj x0 x1 1) (Ideal.ofBits .f32 0x3D000000#32) b h i) := by
  rw [val_main_v14_apply, val_main_v13_apply, val_main_cst_1_apply, v12_at, Ideal.maximumf_def, Ideal.ofBits_def]
  have hbot : Ideal.ofBits .f32 0xFF800000#32 = (⊥ : EReal) := by simp [Ideal.ofBits, Ideal.ieee]
  rw [hbot]
  exact max_eq_right bot_le

/-- The exponential of the score less its row's maximum: the unnormalised weight. -/
theorem v18_at (x0 : Mha.ArrX) (x1 : Mha.ArrWq) (b : Fin 2) (h : Fin 16) (i j : Fin 2048) :
    val_main_v18 (F := Ideal) x0 x1 (ix4 b h i j) = Mha.wgt (Mha.proj x0 x1 0) (Mha.proj x0 x1 1) (Ideal.ofBits .f32 0x3D000000#32) (Ideal.ofBits .f32 0xFF800000#32) b h i j := by
  rw [val_main_v18_apply, val_main_v17_apply, val_main_v16_apply, val_main_v15_apply, v11_at]
  have e : idx_main_v15 (idx_main_v16 (ix4 b h i j)) = ix3 b h i :=
    funext fun a => Fin.ext (by match a with | ⟨0, _⟩ => rfl | ⟨1, _⟩ => rfl | ⟨2, _⟩ => rfl)
  rw [e, v14_at, Ideal.hostUnary_exp_def, Ideal.subf_def]
  rfl

/-- A row's total weight: the float sum's initial value plus the sum of the row's weights. -/
theorem v19_at (x0 : Mha.ArrX) (x1 : Mha.ArrWq) (b : Fin 2) (h : Fin 16) (i : Fin 2048) :
    val_main_v19 (F := Ideal) x0 x1 (ix3 b h i)
      = (Ideal.ofBits .f32 0x00000000#32) + ∑ j : Fin 2048, Mha.wgt (Mha.proj x0 x1 0) (Mha.proj x0 x1 1) (Ideal.ofBits .f32 0x3D000000#32) (Ideal.ofBits .f32 0xFF800000#32) b h i j := by
  rw [val_main_v19_apply, val_main_cst_2_apply, Ideal.ofBits_def]
  refine congrArg (_ + ·) (Finset.sum_congr rfl fun k _ => ?_)
  have e : idx_main_v19 (ix3 b h i) k = ix4 b h i k :=
    funext fun a => Fin.ext (by match a with | ⟨0, _⟩ => rfl | ⟨1, _⟩ => rfl | ⟨2, _⟩ => rfl | ⟨3, _⟩ => rfl)
  rw [e, v18_at]

/-- Every weight divided by its row's total. -/
theorem v22_at (x0 : Mha.ArrX) (x1 : Mha.ArrWq) (b : Fin 2) (h : Fin 16) (i j : Fin 2048) :
    val_main_v22 (F := Ideal) x0 x1 (ix4 b h i j)
      = Ideal.div (Mha.wgt (Mha.proj x0 x1 0) (Mha.proj x0 x1 1) (Ideal.ofBits .f32 0x3D000000#32) (Ideal.ofBits .f32 0xFF800000#32) b h i j)
          ((Ideal.ofBits .f32 0x00000000#32) + ∑ j' : Fin 2048, Mha.wgt (Mha.proj x0 x1 0) (Mha.proj x0 x1 1) (Ideal.ofBits .f32 0x3D000000#32) (Ideal.ofBits .f32 0xFF800000#32) b h i j') := by
  rw [val_main_v22_apply, val_main_v21_apply, val_main_v20_apply, v18_at]
  have e : idx_main_v20 (idx_main_v21 (ix4 b h i j)) = ix3 b h i :=
    funext fun a => Fin.ext (by match a with | ⟨0, _⟩ => rfl | ⟨1, _⟩ => rfl | ⟨2, _⟩ => rfl)
  rw [e, v19_at, Ideal.hostDivf_def]

/-! ## The weighted sum of the value rows -/

/-- The heads' outputs as a [2, 16, 2048, 64] array. -/
theorem v23_eq (x0 : Mha.ArrX) (x1 : Mha.ArrWq) :
    val_main_v23 (F := Ideal) x0 x1
      = Mha.attnR (Mha.proj x0 x1 0) (Mha.proj x0 x1 1) (Mha.proj x0 x1 2) (Ideal.ofBits .f32 0x3D000000#32)
          (Ideal.ofBits .f32 0xFF800000#32) (Ideal.ofBits .f32 0x00000000#32) := by
  funext i
  obtain ⟨b, h, n, d, rfl⟩ : ∃ (b : Fin 2) (h : Fin 16) (n : Fin 2048) (d : Fin 64), i = ix4 b h n d :=
    ⟨i 0, i 1, i 2, i 3, eq_ix4 i⟩
  rw [val_main_v23_apply, v8_eq]
  show _ = Mha.attnRAt _ _ _ _ _ _ b h n d
  unfold Mha.attnRAt
  refine Finset.sum_congr rfl fun k _ => ?_
  have el : lidx_main_v23 (ix4 b h n d) k = ix4 b h n k :=
    funext fun a => Fin.ext (by match a with | ⟨0, _⟩ => rfl | ⟨1, _⟩ => rfl | ⟨2, _⟩ => rfl | ⟨3, _⟩ => rfl)
  have er : ridx_main_v23 (ix4 b h n d) k = ix4 b h k d :=
    funext fun a => Fin.ext (by match a with | ⟨0, _⟩ => rfl | ⟨1, _⟩ => rfl | ⟨2, _⟩ => rfl | ⟨3, _⟩ => rfl)
  rw [el, er, v22_at]

/-! ## Heads concatenated, the output projection, the bias -/

/-- Feature k of token (b, n) in the concatenation of the heads is head k / 64, lane k % 64. -/
theorem v25_at (x0 : Mha.ArrX) (x1 : Mha.ArrWq) (b : Fin 2) (n : Fin 2048) (k : Fin 1024) :
    val_main_v25 (F := Ideal) x0 x1 (ix3 b n k)
      = Mha.attnR (Mha.proj x0 x1 0) (Mha.proj x0 x1 1) (Mha.proj x0 x1 2) (Ideal.ofBits .f32 0x3D000000#32)
          (Ideal.ofBits .f32 0xFF800000#32) (Ideal.ofBits .f32 0x00000000#32)
          (ix4 b ⟨k.val / 64, by have := k.isLt; omega⟩ n ⟨k.val % 64, by omega⟩) := by
  rw [val_main_v25_apply, val_main_v24_apply, v23_eq]
  have e : idx_main_v24 (idx_main_v25 (ix3 b n k))
      = ix4 b (⟨k.val / 64, by have := k.isLt; omega⟩ : Fin 16) n (⟨k.val % 64, by omega⟩ : Fin 64) :=
    funext fun a => Fin.ext (by
      have hb := b.isLt; have hn := n.isLt; have hk := k.isLt
      match a with
      | ⟨0, _⟩ => show ((b.val * 2048 + n.val) * 1024 + k.val) / 2097152 = b.val; omega
      | ⟨1, _⟩ => show ((b.val * 2048 + n.val) * 1024 + k.val) / 64 % 16 = k.val / 64; omega
      | ⟨2, _⟩ => show ((b.val * 2048 + n.val) * 1024 + k.val) / 1024 % 2048 = n.val; omega
      | ⟨3, _⟩ => show ((b.val * 2048 + n.val) * 1024 + k.val) % 64 = k.val % 64; omega)
  rw [e]

/-- The whole result as a function of the four argument arrays. -/
theorem v29_eq (x0 : Mha.ArrX) (x1 : Mha.ArrWq) (x2 : Mha.ArrWo) (x3 : Mha.ArrB) :
    val_main_v29 (F := Ideal) x0 x1 x2 x3
      = Mha.resultR x0 x1 x2 x3 (Ideal.ofBits .f32 0x3D000000#32) (Ideal.ofBits .f32 0xFF800000#32) (Ideal.ofBits .f32 0x00000000#32) := by
  funext i
  obtain ⟨b, n, e, rfl⟩ : ∃ (b : Fin 2) (n : Fin 2048) (e : Fin 1024), i = ix3 b n e := ⟨i 0, i 1, i 2, eq_ix3 i⟩
  rw [val_main_v29_apply, val_main_v26_apply, val_main_v28_apply, val_main_v27_apply, Ideal.addf_def]
  show _ = Mha.outRAt _ x2 x3 b n e
  unfold Mha.outRAt
  have eb : idx_main_v27 (idx_main_v28 (ix3 b n e)) = ix1 e :=
    funext fun a => Fin.ext (by match a with | ⟨0, _⟩ => rfl)
  rw [eb]
  refine congrArg (· + _) (Finset.sum_congr rfl fun k _ => ?_)
  have el : lidx_main_v26 (ix3 b n e) k = ix3 b n k :=
    funext fun a => Fin.ext (by match a with | ⟨0, _⟩ => rfl | ⟨1, _⟩ => rfl | ⟨2, _⟩ => rfl)
  have er : ridx_main_v26 (ix3 b n e) k = ix2 k e :=
    funext fun a => Fin.ext (by match a with | ⟨0, _⟩ => rfl | ⟨1, _⟩ => rfl)
  rw [el, er, v25_at]

/-- The plain program's result buffer is the specification's `resultR` of the four argument arrays. -/
theorem result_eq (m : (ℓ : Loc nD τ sig) → Buf (Elt Ideal) ℓ) (c : Dev nD) :
    Cert.ReferenceIdeal.Value.res_out0 (F := Ideal) m c
      = Mha.resultR (m ((c.tc : Thread nD τ).loc main_arg0)) (m ((c.tc : Thread nD τ).loc main_arg1))
          (m ((c.tc : Thread nD τ).loc main_arg2)) (m ((c.tc : Thread nD τ).loc main_arg3))
          (Ideal.ofBits .f32 0x3D000000#32) (Ideal.ofBits .f32 0xFF800000#32) (Ideal.ofBits .f32 0x00000000#32) :=
  (val_main_v29_eq m c).trans (v29_eq _ _ _ _)

/-- The same, stated on the name the run's postcondition uses for the result buffer's contents. -/
theorem result_eq_main (m : (ℓ : Loc nD τ sig) → Buf (Elt Ideal) ℓ) (c : Dev nD) :
    Cert.ReferenceIdeal.Value.res_main_v29 (F := Ideal) m c
      = Mha.resultR (m ((c.tc : Thread nD τ).loc main_arg0)) (m ((c.tc : Thread nD τ).loc main_arg1))
          (m ((c.tc : Thread nD τ).loc main_arg2)) (m ((c.tc : Thread nD τ).loc main_arg3))
          (Ideal.ofBits .f32 0x3D000000#32) (Ideal.ofBits .f32 0xFF800000#32) (Ideal.ofBits .f32 0x00000000#32) :=
  result_eq m c

end Cert.ReferenceIdeal.RefSpec

end
-- ==== Proof.Finite.lean ====
/-
  The precondition read back: when the printed predicate `finite_inputs` answers all ones on the four argument
  arrays, every entry of the token array and of the packed projection matrix is a real number (neither infinity).
  The predicate is a conjunction of four "all entries satisfy |x| < +inf" tests; the first two are decoded here.
-/
import proofs.«158943_j3393024164286_2_alg».proof.Pre_finite_inputs
import proofs.«158943_j3393024164286_2_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Cert.Pre_finite_inputs

/-- The scalar shape has one index. -/
instance : Subsingleton S_.Idx := ⟨fun a b => funext fun d => d.elim0⟩

/-- The all-ones exponent pattern with zero fraction denotes the top of the extended reals. -/
theorem inf_word : Ideal.ofBits .f32 0x7F800000#32 = (⊤ : EReal) := by
  simp [Ideal.ofBits, Ideal.ieee]

/-- An extended real whose absolute value `max x (-x)` lies strictly below the top is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- One element test `|x| < +inf` that answers 1 says that `x` is a real number. -/
theorem real_of_test (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  apply real_of_abs_lt_top
  rw [Ideal.hostAbsf_def, Ideal.cmpf_def, Ideal.absf_def, Ideal.ofBits_def, inf_word] at h
  simp only [Ideal.cmp] at h
  by_contra hc
  simp [hc] at h

theorem finite_of_pre (x0 : FVec Ideal S2x2048x1024 .f32) (x1 : FVec Ideal S1024x3072 .f32)
    (x2 : FVec Ideal S1024x1024 .f32) (x3 : FVec Ideal S1024 .f32)
    (h : (Cert.Pre_finite_inputs.fn (F := Ideal) x0 x1 x2 x3) = (fun _ => 1#1)) :
    (∀ i, ∃ r : ℝ, x0 i = (r : EReal)) ∧ (∀ i, ∃ r : ℝ, x1 i = (r : EReal)) := by
  have h0 := congrFun h ValueIdx.ix0
  dsimp only [Cert.Pre_finite_inputs.fn, Cert.Pre_finite_inputs.fn_part1, andi] at h0
  obtain ⟨h012, -⟩ := IntOp.andi_eq_one.1 h0
  obtain ⟨h01, -⟩ := IntOp.andi_eq_one.1 h012
  obtain ⟨ha, hb⟩ := IntOp.andi_eq_one.1 h01
  refine ⟨fun i => ?_, fun i => ?_⟩
  · exact real_of_test (x0 i) (Host.reduce_andi_all _ _ _ _ _ ha i)
  · exact real_of_test (x1 i) (Host.reduce_andi_all _ _ _ _ _ hb i)

end Cert.Finite

end
-- ==== Proof.Algebra.lean ====
/-
  The extended-real algebra of multi-head self-attention: the tiled form of the computation (one division per
  output entry, the sixteen heads added one after the other) and the plain form (every weight divided first, one
  contraction over all 1024 features) are the same array, when the inputs and the scale are real numbers, the
  maximum is folded from the bottom element and the sums start from zero.

  Two independent facts.

  * The output projection. For EVERY array of head outputs, adding the sixteen heads' 64-lane products in order onto
    zero is the contraction over the 1024 concatenated features: a regrouping of a finite sum in a commutative
    additive monoid (feature k is head k / 64, lane k % 64). Nothing is assumed of the matrix or of the bias.

  * The attention. With real queries, keys and values and a real scale every score is real, the maximum of a
    nonempty row of reals is real, so every weight is the exponential of a real: a POSITIVE real. The row's total L
    is then a positive real, division by it is multiplication by the real 1 / L, and
    (sum_j p_j v_j) * (1 / L) = sum_j (p_j * (1 / L)) * v_j holds in the real numbers (distributivity, which fails at
    the infinities of the extended reals, is used among reals only, and the result is cast once).
-/
import proofs.«158943_j3393024164286_2_alg».proof.Proof.Spec

noncomputable section

namespace Mha

open Idealize.ShloMosaic Idealize.ShloMosaic.ValueIdx

/-! ### Extended reals that are real numbers -/

/-- An extended real that is a real number. -/
def IsReal (x : EReal) : Prop := ∃ r : ℝ, x = (r : EReal)

theorem isReal_zero : IsReal 0 := ⟨0, EReal.coe_zero.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers is a real number. -/
theorem IsReal.sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- The cast of a finite sum of reals is the sum of the casts. -/
theorem coe_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- The maximum of finitely many reals, folded from the bottom element, is the bottom element or a real. -/
theorem fold_max_bot_or_real {ι : Type*} [DecidableEq ι] (f : ι → EReal) (hf : ∀ i, IsReal (f i)) (s : Finset ι) :
    s.fold max ⊥ f = ⊥ ∨ IsReal (s.fold max ⊥ f) := by
  induction s using Finset.induction_on with
  | empty => exact Or.inl Finset.fold_empty
  | insert a s ha ih =>
    refine Or.inr ?_
    rw [Finset.fold_insert ha]
    obtain ⟨r, hr⟩ := hf a
    rcases ih with h | ⟨t, ht⟩
    · rw [h, max_eq_left bot_le]
      exact ⟨r, hr⟩
    · rw [hr, ht]
      exact ⟨max r t, (EReal.coe_strictMono.monotone.map_max).symm⟩

/-- A row of 2048 reals has a real maximum: the row is not empty. -/
theorem rowMax_real (s : Fin 2048 → EReal) (hs : ∀ j, IsReal (s j)) : IsReal (rowMax ⊥ s) := by
  unfold rowMax
  rw [← Finset.insert_erase (Finset.mem_univ (0 : Fin 2048)), Finset.fold_insert (Finset.notMem_erase _ _)]
  obtain ⟨r, hr⟩ := hs 0
  rcases fold_max_bot_or_real s hs (Finset.univ.erase 0) with h | ⟨t, ht⟩
  · rw [h, max_eq_left bot_le]
    exact ⟨r, hr⟩
  · rw [hr, ht]
    exact ⟨max r t, (EReal.coe_strictMono.monotone.map_max).symm⟩

/-! ### The attention: one division per entry against every weight divided first -/

/-- Positive real weights `p` and real values `v` over a nonempty index set: dividing the weighted sum once by the
    total weight is the weighted sum of the values with every weight divided first. Both are, in the real numbers,
    `(∑ p_j v_j) * (1 / L) = ∑ (p_j * (1 / L)) * v_j` with `L = ∑ p_j > 0`. -/
theorem div_sum_eq {ι : Type*} [Fintype ι] [Nonempty ι] (p v : ι → ℝ) (hp : ∀ j, 0 < p j) :
    Ideal.div (∑ j, (p j : EReal) * (v j : EReal)) (∑ j, (p j : EReal))
      = ∑ j, Ideal.div (p j : EReal) (0 + ∑ j', (p j' : EReal)) * (v j : EReal) := by
  obtain ⟨L, hLdef⟩ : ∃ L : ℝ, L = ∑ j, p j := ⟨_, rfl⟩
  have hL : 0 < L := by
    rw [hLdef]
    exact Finset.sum_pos (fun j _ => hp j) Finset.univ_nonempty
  have hsum : (∑ j, (p j : EReal)) = (L : EReal) := by rw [hLdef, coe_sum]
  rw [zero_add, hsum]
  simp only [Ideal.div_coe hL.ne', ← EReal.coe_mul]
  rw [← coe_sum, ← coe_sum, ← EReal.coe_mul, Finset.sum_mul]
  exact congrArg _ (Finset.sum_congr rfl fun j _ => by ring)

section Attention

variable (Q K V : ArrH) (c : EReal)
variable (hQ : ∀ i, IsReal (Q i)) (hK : ∀ i, IsReal (K i)) (hc : IsReal c)

include hQ hK hc in
/-- Every scaled score of real queries against real keys is real. -/
theorem score_real (b : Fin 2) (h : Fin 16) (i j : Fin 2048) : IsReal (score Q K c b h i j) :=
  (IsReal.sum _ _ fun d _ => (hQ (ix4 b h i d)).mul (hK (ix4 b h j d))).mul hc

include hQ hK hc in
/-- Every weight is a positive real: the exponential of a real score less the row's real maximum. -/
theorem wgt_pos_real (b : Fin 2) (h : Fin 16) (i j : Fin 2048) :
    ∃ r : ℝ, 0 < r ∧ wgt Q K c ⊥ b h i j = (r : EReal) := by
  obtain ⟨s, hs⟩ := score_real Q K c hQ hK hc b h i j
  obtain ⟨m, hm⟩ := rowMax_real (score Q K c b h i) (score_real Q K c hQ hK hc b h i)
  refine ⟨Real.exp (s - m), Real.exp_pos _, ?_⟩
  unfold wgt
  rw [hs, hm, ← EReal.coe_sub, Ideal.exp_coe]

include hQ hK hc in
/-- One entry of the attention output: the two places of the division agree. -/
theorem attnKAt_eq_attnRAt (hV : ∀ i, IsReal (V i)) (b : Fin 2) (h : Fin 16) (i : Fin 2048) (d : Fin 64) :
    attnKAt Q K V c ⊥ b h i d = attnRAt Q K V c ⊥ 0 b h i d := by
  choose p hp hpe using fun j => wgt_pos_real Q K c hQ hK hc b h i j
  choose v hv using fun j => hV (ix4 b h j d)
  unfold attnKAt attnRAt
  simp only [hpe, hv]
  exact div_sum_eq p v hp

include hQ hK hc in
/-- The attention outputs agree as arrays. -/
theorem attnK_eq_attnR (hV : ∀ i, IsReal (V i)) : attnK Q K V c ⊥ = attnR Q K V c ⊥ 0 :=
  funext fun i => attnKAt_eq_attnRAt Q K V c hQ hK hc hV (i 0) (i 1) (i 2) (i 3)

end Attention

/-- The packed projection of a real input by a real matrix has real entries. -/
theorem proj_real (X : ArrX) (W : ArrWq) (hX : ∀ i, IsReal (X i)) (hW : ∀ i, IsReal (W i)) (s : Fin 3) (i) :
    IsReal (proj X W s i) := by
  show IsReal (∑ k : Fin 1024, X (ix3 (i 0) (i 2) k) * W (ix2 k (col s (i 1) (i 3))))
  exact IsReal.sum _ _ fun k _ => (hX _).mul (hW _)

/-! ### The output projection: sixteen heads in order against one contraction over 1024 features -/

/-- A running total started from zero is the sum of the terms added. -/
theorem accHeads_zero (T : ℕ → EReal) : ∀ n : ℕ, accHeads T 0 n = ∑ h ∈ Finset.range n, T h
  | 0 => by rw [Finset.sum_range_zero]; rfl
  | n + 1 => by rw [Finset.sum_range_succ, ← accHeads_zero T n]; rfl

/-- The head of feature `k`: `k / 64`. -/
def headOf (k : Fin 1024) : Fin 16 := ⟨k.val / 64, by have := k.isLt; omega⟩

/-- The lane of feature `k`: `k % 64`. -/
def laneOf (k : Fin 1024) : Fin 64 := ⟨k.val % 64, by omega⟩

theorem headOf_feat (h : Fin 16) (d : Fin 64) : headOf (feat h d) = h :=
  Fin.ext (by show (h.val * 64 + d.val) / 64 = h.val; have := d.isLt; omega)

theorem laneOf_feat (h : Fin 16) (d : Fin 64) : laneOf (feat h d) = d :=
  Fin.ext (by show (h.val * 64 + d.val) % 64 = d.val; have := d.isLt; omega)

theorem feat_headOf_laneOf (k : Fin 1024) : feat (headOf k) (laneOf k) = k :=
  Fin.ext (by show k.val / 64 * 64 + k.val % 64 = k.val; omega)

/-- The 1024 features are the pairs (head, lane). -/
def featEquiv : Fin 16 × Fin 64 ≃ Fin 1024 where
  toFun p := feat p.1 p.2
  invFun k := (headOf k, laneOf k)
  left_inv p := Prod.ext (headOf_feat p.1 p.2) (laneOf_feat p.1 p.2)
  right_inv k := feat_headOf_laneOf k

/-- One entry of the output projection, for any head outputs, matrix and bias. -/
theorem outKAt_eq_outRAt (A : ArrH) (Wo : ArrWo) (B : ArrB) (b : Fin 2) (n : Fin 2048) (e : Fin 1024) :
    outKAt A Wo B 0 b n e = outRAt A Wo B b n e := by
  show accHeads (headTermN A Wo b n e) 0 16 + B (ix1 e)
    = (∑ k : Fin 1024, A (ix4 b (headOf k) n (laneOf k)) * Wo (ix2 k e)) + B (ix1 e)
  refine congrArg (· + B (ix1 e)) ?_
  rw [accHeads_zero, ← Fin.sum_univ_eq_sum_range (headTermN A Wo b n e) 16,
    ← featEquiv.sum_comp (fun k : Fin 1024 => A (ix4 b (headOf k) n (laneOf k)) * Wo (ix2 k e)),
    Fintype.sum_prod_type]
  refine Finset.sum_congr rfl fun h _ => ?_
  rw [headTermN, dif_pos h.isLt]
  refine Finset.sum_congr rfl fun d _ => ?_
  show A (ix4 b h n d) * Wo (ix2 (feat h d) e)
    = A (ix4 b (headOf (feat h d)) n (laneOf (feat h d))) * Wo (ix2 (feat h d) e)
  rw [headOf_feat, laneOf_feat]

/-- The output projections agree as arrays, for any head outputs, matrix and bias. -/
theorem outK_eq_outR (A : ArrH) (Wo : ArrWo) (B : ArrB) : outK A Wo B 0 = outR A Wo B :=
  funext fun i => outKAt_eq_outRAt A Wo B (i 0) (i 1) (i 2)

/-! ### The two computations agree -/

theorem resultK_eq_resultR (X : ArrX) (Wq : ArrWq) (Wo : ArrWo) (B : ArrB) (c bot z : EReal)
    (hX : ∀ i, ∃ r : ℝ, X i = (r : EReal)) (hW : ∀ i, ∃ r : ℝ, Wq i = (r : EReal))
    (hc : ∃ r : ℝ, c = (r : EReal)) (hbot : bot = ⊥) (hz : z = 0) :
    resultK X Wq Wo B c bot z = resultR X Wq Wo B c bot z := by
  subst hbot hz
  unfold resultK resultR
  rw [attnK_eq_attnR (proj X Wq 0) (proj X Wq 1) (proj X Wq 2) c (proj_real X Wq hX hW 0) (proj_real X Wq hX hW 1) hc
    (proj_real X Wq hX hW 2)]
  exact outK_eq_outR _ Wo B

/-! ### The float words the programs use -/

/-- The word of 1/32 denotes a real number. -/
theorem scale_real : ∃ r : ℝ, Ideal.ofBits .f32 0x3D000000#32 = (r : EReal) := by
  simp [Ideal.ofBits, Ideal.ieee, -EReal.coe_mul]

/-- The word of negative infinity denotes the bottom element. -/
theorem neg_inf : Ideal.ofBits .f32 0xFF800000#32 = ⊥ := by
  simp [Ideal.ofBits, Ideal.ieee]

/-- The zero word denotes zero. -/
theorem zero_word : Ideal.ofBits .f32 0x00000000#32 = 0 := by
  simp [Ideal.ofBits, Ideal.ieee]

end Mha

end
-- ==== Proof.lean ====
/-
  Multi-head self-attention, tiled against plain: x : [2, 2048, 1024], a packed [1024, 3072] projection matrix,
  a [1024, 1024] output matrix and a bias of 1024 entries; 16 heads of 64 lanes, scores scaled by 1/32.

  The tiled program runs three launches: the packed projection written head by head (512 rows per point); the
  attention of one head per point, which exponentiates the scores less their row maximum and divides the weighted sum
  of the value rows ONCE by the row's total; and the output projection, which adds the sixteen heads' products of 64
  lanes one after the other onto zero and then the bias. The plain program contracts, transposes and reshapes whole
  arrays, divides EVERY weight by the row's total before the weighted sum, and contracts all 1024 features at once.

  Read on the extended reals both results are one function of the arguments:
  * a change of float format is the identity, and a sum may be regrouped freely (the extended reals are a commutative
    additive monoid), so the two output projections agree for every input, nothing assumed finite;
  * pulling the division by the row's total out of the weighted sum is distributivity, which fails at the infinities:
    there the precondition is used. Finite arguments give real projections, hence real scores, a real row maximum (the
    fold of max from minus infinity over 2048 reals), real positive weights and a real positive total, and the
    identity (sum_j p_j v_j) / L = sum_j (p_j / L) v_j is one of real numbers.

  Spec.lean states the functions; Stage0 / Stage1 / Stage2 read what one grid point of each launch stores, and their
  ...Arr companions pass from the blocks to the whole arrays (the blocks tile them); KRun and KValue run the three
  launches in a row; RefSpec reads the plain program one operation at a time; Finite reads the precondition;
  Algebra is the law on the extended reals.
-/
import proofs.«158943_j3393024164286_2_alg».proof.Defs
import proofs.«158943_j3393024164286_2_alg».proof.Proof.Gen.Kernel
import proofs.«158943_j3393024164286_2_alg».proof.Proof.Gen.Kernel.Skeleton
import proofs.«158943_j3393024164286_2_alg».proof.Proof.Gen.Kernel.Launch
import proofs.«158943_j3393024164286_2_alg».proof.Proof.Gen.Kernel.Points
import proofs.«158943_j3393024164286_2_alg».proof.Proof.Gen.Kernel.Frame
import proofs.«158943_j3393024164286_2_alg».proof.Proof.Gen.KernelIdeal
import proofs.«158943_j3393024164286_2_alg».proof.Proof.Gen.KernelIdeal.Skeleton
import proofs.«158943_j3393024164286_2_alg».proof.Proof.Gen.KernelIdeal.Launch
import proofs.«158943_j3393024164286_2_alg».proof.Proof.Gen.KernelIdeal.Points
import proofs.«158943_j3393024164286_2_alg».proof.Proof.Gen.KernelIdeal.Frame
import proofs.«158943_j3393024164286_2_alg».proof.Proof.Gen.ReferenceIdeal
import proofs.«158943_j3393024164286_2_alg».proof.Proof.Gen.Pre_finite_inputs
import proofs.«158943_j3393024164286_2_alg».proof.Proof.Gen.ReferenceIdeal.Run
import proofs.«158943_j3393024164286_2_alg».proof.Proof.Gen.ReferenceIdeal.Read
import proofs.«158943_j3393024164286_2_alg».proof.Proof.KValue
import proofs.«158943_j3393024164286_2_alg».proof.Proof.RefSpec
import proofs.«158943_j3393024164286_2_alg».proof.Proof.Finite
import proofs.«158943_j3393024164286_2_alg».proof.Proof.Algebra
import Idealize.ShloMosaic.Adequacy
import Idealize.ShloMosaic.Init

noncomputable section

namespace Cert.Proof

open Idealize.ShloMosaic Idealize.SL.Sem

/-- The word-level program runs and leaves its arguments as launched. -/
theorem frame_k : Cert.frame_Kernel := fun m ρ _ => Cert.Kernel.Gen.frame m ρ

/-- So does the tiled program read on the extended reals. -/
theorem frame_ki : Cert.frame_KernelIdeal := fun m ρ _ => Cert.KernelIdeal.Gen.frame m ρ

/-- The plain program's run with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- From arguments that agree and are finite the two programs end with one result: the tiled program's array is
    the one-division, head-by-head function of the arguments, the plain program's the divide-first, all-at-once
    function, and on finite arguments these are equal. -/
theorem algebraic : Cert.algebraic_KernelIdeal_ReferenceIdeal := by
  intro m ρ m' ρ' hpre hagree
  refine ⟨fun c => Mha.resultK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      Cert.KernelIdeal.Stage1.cw Cert.KernelIdeal.Stage1.botw Cert.KernelIdeal.Stage2.zw,
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefSpec.result_eq_main m' c, (hagree c).1, (hagree c).2.1, (hagree c).2.2.1, (hagree c).2.2.2]
  obtain ⟨hX, hW⟩ := Cert.Finite.finite_of_pre _ _ _ _ (hpre c)
  exact (Mha.resultK_eq_resultR _ _ _ _ _ _ _ hX hW Mha.scale_real Mha.neg_inf Mha.zero_word).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
